-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x224x224 : Shape := ⟨4, ![32, 3, 224, 224]⟩
abbrev S_ : Shape := ⟨0, ![]⟩

class Facts : Prop where
  bcast_S_S32x3x224x224 : S_.BroadcastsInDim S32x3x224x224 (![] : Fin 0 → Fin S32x3x224x224.rank)
  reducesTo_S32x3x224x224_S_d0_1_2_3 : S32x3x224x224.ReducesTo [0, 1, 2, 3] S_
  h_S_ : 0 < S_.numel

variable [Facts]

def fn {F : FTy → Type} [FloatOps F] (main_arg0 : FVec F S32x3x224x224 .f32) : IVec S_ 1 :=
  let main_v0 : FVec F S32x3x224x224 .f32 := Host.absf main_arg0
  let main_cst : FVec F S_ .f32 := constant S_ .f32 0x7F800000#32
  let main_v1 : FVec F S32x3x224x224 .f32 := broadcastInDim S32x3x224x224 ![] bcast_S_S32x3x224x224 main_cst
  let main_v2 : IVec S32x3x224x224 1 := cmpf .olt main_v0 main_v1
  let main_c : IVec S_ 1 := constantI S_ 1 1#1
  let main_v3 : IVec S_ 1 := (fun x v => Host.reduce IntOp.andi x v reducesTo_S32x3x224x224_S_d0_1_2_3 h_S_) main_v2 main_c
  main_v3
-- ==== Kernel.lean ====
abbrev S32x3x224x224 : Shape := ⟨4, ![32, 3, 224, 224]⟩
abbrev S32x1x224x224 : Shape := ⟨4, ![32, 1, 224, 224]⟩
abbrev S1x3x224x224 : Shape := ⟨4, ![1, 3, 224, 224]⟩
abbrev S1x1x224x224 : Shape := ⟨4, ![1, 1, 224, 224]⟩
abbrev S3x224x224 : Shape := ⟨3, ![3, 224, 224]⟩
abbrev S3x222x222 : Shape := ⟨3, ![3, 222, 222]⟩
abbrev S222x222 : Shape := ⟨2, ![222, 222]⟩
abbrev S224x224 : Shape := ⟨2, ![224, 224]⟩
abbrev S1x1x222x222 : Shape := ⟨4, ![1, 1, 222, 222]⟩

abbrev nBuf : Space → Nat
  | .hbm => 2
  | .vmem => 4
  | .smem => 0
  | _ => 0

abbrev bufTy : (tb : Table) → Fin (tcTables nBuf tb) → BufTy
  | .hbm, ⟨0, _⟩ => ⟨S32x3x224x224, .f32⟩
  | .hbm, ⟨1, _⟩ => ⟨S32x1x224x224, .f32⟩
  | .local _ .vmem, ⟨0, _⟩ => ⟨S1x3x224x224, .f32⟩
  | .local _ .vmem, ⟨1, _⟩ => ⟨S1x3x224x224, .f32⟩
  | .local _ .vmem, ⟨2, _⟩ => ⟨S1x1x224x224, .f32⟩
  | .local _ .vmem, ⟨3, _⟩ => ⟨S1x1x224x224, .f32⟩
  | _, _ => ⟨S32x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x3x224x224_S1x3x224x224_0_0_0_0 : ∀ a, (![0, 0, 0, 0] : Fin 4 → Nat) a + S1x3x224x224.size a ≤ S1x3x224x224.size a
  h_S1x3x224x224 : 0 < S1x3x224x224.numel
  shapeCasts_S1x3x224x224_S3x224x224 : S1x3x224x224.ShapeCasts S3x224x224
  slices_S3x224x224_o0_0_0_S3x222x222 : S3x224x224.Slices ![0, 0, 0] S3x222x222
  slices_S3x224x224_o0_0_1_S3x222x222 : S3x224x224.Slices ![0, 0, 1] S3x222x222
  slices_S3x224x224_o0_0_2_S3x222x222 : S3x224x224.Slices ![0, 0, 2] S3x222x222
  slices_S3x224x224_o0_1_0_S3x222x222 : S3x224x224.Slices ![0, 1, 0] S3x222x222
  slices_S3x224x224_o0_1_1_S3x222x222 : S3x224x224.Slices ![0, 1, 1] S3x222x222
  slices_S3x224x224_o0_1_2_S3x222x222 : S3x224x224.Slices ![0, 1, 2] S3x222x222
  slices_S3x224x224_o0_2_0_S3x222x222 : S3x224x224.Slices ![0, 2, 0] S3x222x222
  slices_S3x224x224_o0_2_1_S3x222x222 : S3x224x224.Slices ![0, 2, 1] S3x222x222
  slices_S3x224x224_o0_2_2_S3x222x222 : S3x224x224.Slices ![0, 2, 2] S3x222x222
  reduces_S3x222x222_S222x222 : S3x222x222.Reduces [0] S222x222
  inb_S1x1x224x224_S1x1x224x224_0_0_0_0 : ∀ a, (![0, 0, 0, 0] : Fin 4 → Nat) a + S1x1x224x224.size a ≤ S1x1x224x224.size a
  h_S1x1x224x224 : 0 < S1x1x224x224.numel
  shapeCasts_S1x1x224x224_S224x224 : S1x1x224x224.ShapeCasts S224x224
  shapeCasts_S224x224_S1x1x224x224 : S224x224.ShapeCasts S1x1x224x224
  inb_S1x1x224x224_S1x1x222x222_0_0_1_1 : ∀ a, (![0, 0, 1, 1] : Fin 4 → Nat) a + S1x1x222x222.size a ≤ S1x1x224x224.size a
  h_S1x1x222x222 : 0 < S1x1x222x222.numel
  shapeCasts_S1x1x222x222_S222x222 : S1x1x222x222.ShapeCasts S222x222
  shapeCasts_S222x222_S1x1x222x222 : S222x222.ShapeCasts S1x1x222x222
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x224x224.size a ≤ S32x3x224x224.size a
  hwx0_0 : ∀ i : grid0.Coords, EltTy.bits .f32 = 32 ∨ (Rect.block (s := S32x3x224x224) S1x3x224x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x224x224.size a ≤ S32x1x224x224.size a
  hwx0_1 : ∀ i : grid0.Coords, EltTy.bits .f32 = 32 ∨ (Rect.block (s := S32x1x224x224) S1x1x224x224.size (cc0_transform_1 i) (hinb0_1 i)).WholeWords (EltTy.packing .f32)

variable [Facts₀]

abbrev win0_0 : Pipeline.Window sig grid0 :=
  Pipeline.Window.ofSpec (Memref.whole main_arg0) S1x3x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x224x224.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x3x224x224 : Shape := ⟨4, ![32, 3, 224, 224]⟩
abbrev S32x3x222x222 : Shape := ⟨4, ![32, 3, 222, 222]⟩
abbrev S32x3x222x222x1 : Shape := ⟨5, ![32, 3, 222, 222, 1]⟩
abbrev S32x3x222x222x9 : Shape := ⟨5, ![32, 3, 222, 222, 9]⟩
abbrev S32x222x222x9x3 : Shape := ⟨5, ![32, 222, 222, 9, 3]⟩
abbrev S_ : Shape := ⟨0, ![]⟩
abbrev S32x222x222x9 : Shape := ⟨4, ![32, 222, 222, 9]⟩
abbrev S32x222x222x9x9 : Shape := ⟨5, ![32, 222, 222, 9, 9]⟩
abbrev S32x222x222x9x1 : Shape := ⟨5, ![32, 222, 222, 9, 1]⟩
abbrev S32x222x222x1x9 : Shape := ⟨5, ![32, 222, 222, 1, 9]⟩
abbrev S32x222x222 : Shape := ⟨3, ![32, 222, 222]⟩
abbrev S32x1x222x222 : Shape := ⟨4, ![32, 1, 222, 222]⟩
abbrev S32x1x224x224 : Shape := ⟨4, ![32, 1, 224, 224]⟩

abbrev nBuf : Space → Nat
  | .hbm => 58
  | .vmem => 0
  | .smem => 0
  | _ => 0

abbrev bufTy : (tb : Table) → Fin (tcTables nBuf tb) → BufTy
  | .hbm, ⟨0, _⟩ => ⟨S32x3x224x224, .f32⟩
  | .hbm, ⟨1, _⟩ => ⟨S32x3x222x222, .f32⟩
  | .hbm, ⟨2, _⟩ => ⟨S32x3x222x222, .f32⟩
  | .hbm, ⟨3, _⟩ => ⟨S32x3x222x222, .f32⟩
  | .hbm, ⟨4, _⟩ => ⟨S32x3x222x222, .f32⟩
  | .hbm, ⟨5, _⟩ => ⟨S32x3x222x222, .f32⟩
  | .hbm, ⟨6, _⟩ => ⟨S32x3x222x222, .f32⟩
  | .hbm, ⟨7, _⟩ => ⟨S32x3x222x222, .f32⟩
  | .hbm, ⟨8, _⟩ => ⟨S32x3x222x222, .f32⟩
  | .hbm, ⟨9, _⟩ => ⟨S32x3x222x222, .f32⟩
  | .hbm, ⟨10, _⟩ => ⟨S32x3x222x222x1, .f32⟩
  | .hbm, ⟨11, _⟩ => ⟨S32x3x222x222x1, .f32⟩
  | .hbm, ⟨12, _⟩ => ⟨S32x3x222x222x1, .f32⟩
  | .hbm, ⟨13, _⟩ => ⟨S32x3x222x222x1, .f32⟩
  | .hbm, ⟨14, _⟩ => ⟨S32x3x222x222x1, .f32⟩
  | .hbm, ⟨15, _⟩ => ⟨S32x3x222x222x1, .f32⟩
  | .hbm, ⟨16, _⟩ => ⟨S32x3x222x222x1, .f32⟩
  | .hbm, ⟨17, _⟩ => ⟨S32x3x222x222x1, .f32⟩
  | .hbm, ⟨18, _⟩ => ⟨S32x3x222x222x1, .f32⟩
  | .hbm, ⟨19, _⟩ => ⟨S32x3x222x222x9, .f32⟩
  | .hbm, ⟨20, _⟩ => ⟨S32x222x222x9x3, .f32⟩
  | .hbm, ⟨21, _⟩ => ⟨S32x222x222x9x3, .f32⟩
  | .hbm, ⟨22, _⟩ => ⟨S_, .f32⟩
  | .hbm, ⟨23, _⟩ => ⟨S32x222x222x9, .f32⟩
  | .hbm, ⟨24, _⟩ => ⟨S32x222x222x9x9, .f32⟩
  | .hbm, ⟨25, _⟩ => ⟨S32x222x222x9x1, .f32⟩
  | .hbm, ⟨26, _⟩ => ⟨S32x222x222x1x9, .f32⟩
  | .hbm, ⟨27, _⟩ => ⟨S32x222x222x9x9, .f32⟩
  | .hbm, ⟨28, _⟩ => ⟨S32x222x222x9x9, .f32⟩
  | .hbm, ⟨29, _⟩ => ⟨S32x222x222x9x9, .f32⟩
  | .hbm, ⟨30, _⟩ => ⟨S_, .f32⟩
  | .hbm, ⟨31, _⟩ => ⟨S32x222x222x9x9, .f32⟩
  | .hbm, ⟨32, _⟩ => ⟨S32x222x222x9x9, .f32⟩
  | .hbm, ⟨33, _⟩ => ⟨S32x222x222x9x9, .f32⟩
  | .hbm, ⟨34, _⟩ => ⟨S_, .f32⟩
  | .hbm, ⟨35, _⟩ => ⟨S32x222x222x9x9, .f32⟩
  | .hbm, ⟨36, _⟩ => ⟨S32x222x222x9x9, .f32⟩
  | .hbm, ⟨37, _⟩ => ⟨S_, .f32⟩
  | .hbm, ⟨38, _⟩ => ⟨S32x222x222x9x9, .f32⟩
  | .hbm, ⟨39, _⟩ => ⟨S32x222x222x9x9, .i1⟩
  | .hbm, ⟨40, _⟩ => ⟨S_, .f32⟩
  | .hbm, ⟨41, _⟩ => ⟨S32x222x222x9x9, .f32⟩
  | .hbm, ⟨42, _⟩ => ⟨S32x222x222x9x9, .i1⟩
  | .hbm, ⟨43, _⟩ => ⟨S_, .f32⟩
  | .hbm, ⟨44, _⟩ => ⟨S_, .f32⟩
  | .hbm, ⟨45, _⟩ => ⟨S32x222x222x9x9, .f32⟩
  | .hbm, ⟨46, _⟩ => ⟨S32x222x222x9x9, .f32⟩
  | .hbm, ⟨47, _⟩ => ⟨S32x222x222x9x9, .f32⟩
  | .hbm, ⟨48, _⟩ => ⟨S_, .f32⟩
  | .hbm, ⟨49, _⟩ => ⟨S_, .f32⟩
  | .hbm, ⟨50, _⟩ => ⟨S32x222x222x9x9, .f32⟩
  | .hbm, ⟨51, _⟩ => ⟨S32x222x222x9x9, .f32⟩
  | .hbm, ⟨52, _⟩ => ⟨S_, .f32⟩
  | .hbm, ⟨53, _⟩ => ⟨S32x222x222, .f32⟩
  | .hbm, ⟨54, _⟩ => ⟨S32x1x222x222, .f32⟩
  | .hbm, ⟨55, _⟩ => ⟨S_, .i32⟩
  | .hbm, ⟨56, _⟩ => ⟨S_, .f32⟩
  | .hbm, ⟨57, _⟩ => ⟨S32x1x224x224, .f32⟩
  | _, _ => ⟨S32x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_cst : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_cst_0 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_cst_1 : Ref sig .tc := ⟨.hbm, 34, rfl⟩
abbrev main_v31 : Ref sig .tc := ⟨.hbm, 35, rfl⟩
abbrev main_v32 : Ref sig .tc := ⟨.hbm, 36, rfl⟩
abbrev main_cst_2 : Ref sig .tc := ⟨.hbm, 37, rfl⟩
abbrev main_v33 : Ref sig .tc := ⟨.hbm, 38, rfl⟩
abbrev main_v34 : Ref sig .tc := ⟨.hbm, 39, rfl⟩
abbrev main_cst_3 : Ref sig .tc := ⟨.hbm, 40, rfl⟩
abbrev main_v35 : Ref sig .tc := ⟨.hbm, 41, rfl⟩
abbrev main_v36 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_call1_v0 : Ref sig .tc := ⟨.hbm, 49, rfl⟩
abbrev main_call1_v1 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_call2_v0 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  slices_S32x3x224x224_S32x3x222x222_0_0_0_0 : S32x3x224x224.Slices ![0, 0, 0, 0] S32x3x222x222
  slices_S32x3x224x224_S32x3x222x222_0_0_0_1 : S32x3x224x224.Slices ![0, 0, 0, 1] S32x3x222x222
  slices_S32x3x224x224_S32x3x222x222_0_0_0_2 : S32x3x224x224.Slices ![0, 0, 0, 2] S32x3x222x222
  slices_S32x3x224x224_S32x3x222x222_0_0_1_0 : S32x3x224x224.Slices ![0, 0, 1, 0] S32x3x222x222
  slices_S32x3x224x224_S32x3x222x222_0_0_1_1 : S32x3x224x224.Slices ![0, 0, 1, 1] S32x3x222x222
  slices_S32x3x224x224_S32x3x222x222_0_0_1_2 : S32x3x224x224.Slices ![0, 0, 1, 2] S32x3x222x222
  slices_S32x3x224x224_S32x3x222x222_0_0_2_0 : S32x3x224x224.Slices ![0, 0, 2, 0] S32x3x222x222
  slices_S32x3x224x224_S32x3x222x222_0_0_2_1 : S32x3x224x224.Slices ![0, 0, 2, 1] S32x3x222x222
  slices_S32x3x224x224_S32x3x222x222_0_0_2_2 : S32x3x224x224.Slices ![0, 0, 2, 2] S32x3x222x222
  bcast_S32x3x222x222_S32x3x222x222x1_0_1_2_3 : S32x3x222x222.BroadcastsInDim S32x3x222x222x1 (![0, 1, 2, 3] : Fin 4 → Fin S32x3x222x222x1.rank)
  concatenates_S32x3x222x222x1_S32x3x222x222x1_S32x3x222x222x1_S32x3x222x222x1_S32x3x222x222x1_S32x3x222x222x1_S32x3x222x222x1_S32x3x222x222x1_S32x3x222x222x1_S32x3x222x222x9_d4 : Shape.Concatenates [S32x3x222x222x1, S32x3x222x222x1, S32x3x222x222x1, S32x3x222x222x1, S32x3x222x222x1, S32x3x222x222x1, S32x3x222x222x1, S32x3x222x222x1, S32x3x222x222x1] S32x3x222x222x9 4
  transposes_S32x3x222x222x9_S32x222x222x9x3_0_2_3_4_1 : S32x3x222x222x9.Transposes [0, 2, 3, 4, 1] S32x222x222x9x3
  reducesTo_S32x222x222x9x3_S32x222x222x9_d4 : S32x222x222x9x3.ReducesTo [4] S32x222x222x9
  h_S_ : 0 < S_.numel
  bcast_S32x222x222x9_S32x222x222x9x1_0_1_2_3 : S32x222x222x9.BroadcastsInDim S32x222x222x9x1 (![0, 1, 2, 3] : Fin 4 → Fin S32x222x222x9x1.rank)
  bcast_S32x222x222x9_S32x222x222x1x9_0_1_2_4 : S32x222x222x9.BroadcastsInDim S32x222x222x1x9 (![0, 1, 2, 4] : Fin 4 → Fin S32x222x222x1x9.rank)
  bcast_S32x222x222x9x1_S32x222x222x9x9_0_1_2_3_4 : S32x222x222x9x1.BroadcastsInDim S32x222x222x9x9 (![0, 1, 2, 3, 4] : Fin 5 → Fin S32x222x222x9x9.rank)
  bcast_S32x222x222x1x9_S32x222x222x9x9_0_1_2_3_4 : S32x222x222x1x9.BroadcastsInDim S32x222x222x9x9 (![0, 1, 2, 3, 4] : Fin 5 → Fin S32x222x222x9x9.rank)
  bcast_S_S32x222x222x9x9 : S_.BroadcastsInDim S32x222x222x9x9 (![] : Fin 0 → Fin S32x222x222x9x9.rank)
  reducesTo_S32x222x222x9x9_S32x222x222_d3_4 : S32x222x222x9x9.ReducesTo [3, 4] S32x222x222
  bcast_S32x222x222_S32x1x222x222_0_2_3 : S32x222x222.BroadcastsInDim S32x1x222x222 (![0, 2, 3] : Fin 3 → Fin S32x1x222x222.rank)
  pads_S32x1x222x222_S32x1x224x224_000_000_110_110 : S32x1x222x222.Pads (![0, 0, 1, 1] : Fin 4 → Nat) ![0, 0, 1, 1] ![0, 0, 0, 0] S32x1x224x224
  dot_S32x222x222x9x3_S32x222x222x9x3_S32x222x222x9x9_4_4_3_3_012_012_wf : DotDims.WF S32x222x222x9x3 S32x222x222x9x3 S32x222x222x9x9 [4] [4] [3] [3] [0, 1, 2] [0, 1, 2]

variable [Facts₀]

def dot_S32x222x222x9x3_S32x222x222x9x3_S32x222x222x9x9_4_4_3_3_012_012 : DotDims S32x222x222x9x3 S32x222x222x9x3 S32x222x222x9x9 where
  lhsContracting := [4]
  rhsContracting := [4]
  lhsNonContracting := [3]
  rhsNonContracting := [3]
  lhsBatch := [0, 1, 2]
  rhsBatch := [0, 1, 2]
  wf := dot_S32x222x222x9x3_S32x222x222x9x3_S32x222x222x9x9_4_4_3_3_012_012_wf

class Facts : Prop extends Facts₀ where

variable [Facts]
-- ==== Proof.ChainBits.lean ====
/-
  What the body computes from one image's block: the 222×222 array of largest patch distances, as one term over the
  skeleton's payloads, in the order the body's parts hand them on. The nine shifted 3×222×222 slices of the block
  (`v2` … `v10`), their squared norms over the channels (`v12` … `v28`), then the running maximum of the clamped
  squared distances through the 36 pairs, and the square root at the end (inside the last payload).
-/
import proofs.«154331_j50551765074334_1_alg».proof.Proof.Gen.Kernel.Skeleton

noncomputable section

namespace Cert.Kernel.Body

open Idealize.ShloMosaic Cert.Kernel Cert.Kernel.Gen

variable {F : FTy → Type} [FloatOps F]

/-- The 222×222 values the body stores into the interior of its output block, from the loaded input block. -/
def interior (v0 : Vec F S1x3x224x224 .f32) : FVec F S222x222 .f32 :=
  let v2 := k0_pay4 v0
  let v3 := k0_pay5 v0
  let v4 := k0_pay6 v0
  let v5 := k0_pay7 v0
  let v6 := k0_pay8 v0
  let v7 := k0_pay9 v0
  let v8 := k0_pay10 v0
  let v9 := k0_pay11 v0
  let v10 := k0_pay12 v0
  let v12 := k0_pay13 v0
  let v14 := k0_pay14 v0
  let v16 := k0_pay15 v0
  let v18 := k0_pay16 v0
  let v20 := k0_pay17 v0
  let v22 := k0_pay18 v0
  let v24 := k0_pay19 v0
  let v26 := k0_pay20 v0
  let v28 := k0_pay21 v0
  let v38 := k0_pay22 v0
  let v40 := k0_pay23 v0
  let v83 := k0_pay24 v2 v5 v6 v7 v8 v12 v16 v18 v20 v22 v24 v38 v40
  let v85 := k0_pay25 v2 v9
  let v128 := k0_pay26 v2 v3 v4 v5 v6 v10 v12 v14 v16 v18 v20 v26 v28 v83 v85
  let v130 := k0_pay27 v3 v7
  let v173 := k0_pay28 v3 v4 v5 v8 v9 v10 v14 v16 v18 v22 v24 v26 v28 v128 v130
  let v175 := k0_pay29 v4 v6
  let v218 := k0_pay30 v4 v7 v8 v9 v10 v16 v20 v22 v24 v26 v28 v173 v175
  let v220 := k0_pay31 v5 v6
  let v263 := k0_pay32 v5 v7 v8 v9 v10 v18 v20 v22 v24 v26 v28 v218 v220
  let v265 := k0_pay33 v6 v7
  let v308 := k0_pay34 v6 v7 v8 v9 v10 v20 v22 v24 v26 v28 v263 v265
  let v310 := k0_pay35 v7 v9
  k0_pay36 v7 v8 v9 v10 v22 v24 v26 v28 v308 v310

end Cert.Kernel.Body

end
-- ==== Proof.BodyBits.lean ====
/-
  The kernel body at one grid point, and the run of the whole pipeline from it.

  At each point the body reads one image's block (1×3×224×224), computes from it a 222×222 array (the largest
  distance between the patches around a pixel), and writes the 1×1×224×224 output block twice: first zeros over the
  whole block, then the 222×222 array over the interior (rows and columns 1 … 222). So the block it leaves is a
  function of the input block alone: the interior holds the array, the one-pixel border holds zeros. It is stated as
  the canonical contents of the two stores, the later one first. The stores do not tile the block, since the interior
  lies inside the whole rectangle, but they cover it, because every index lies in the whole rectangle; that is all
  the canonical form needs. The body also reads the output block before each store; the values read are not used, so
  what the block held before does not matter.

  From the triple of the body follow the proof data of the pipeline (what each window's buffer holds after each
  point), the body obligation, the run of the program, and the frame: the argument array is left as it was.
-/
import proofs.«154331_j50551765074334_1_alg».proof.Proof.ChainBits
import proofs.«154331_j50551765074334_1_alg».proof.Proof.Gen.Kernel.Frame
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses -/

/-- The whole input block (one image, three channels). -/
abbrev rIn : Rect S1x3x224x224 := Rect.unit (s := S1x3x224x224) ![0, 0, 0, 0] S1x3x224x224.size inb_S1x3x224x224_S1x3x224x224_0_0_0_0
/-- The whole output block. -/
abbrev rOut : Rect S1x1x224x224 := Rect.unit (s := S1x1x224x224) ![0, 0, 0, 0] S1x1x224x224.size inb_S1x1x224x224_S1x1x224x224_0_0_0_0
/-- The interior of the output block: rows and columns 1 … 222. -/
abbrev rInt : Rect S1x1x224x224 := Rect.unit (s := S1x1x224x224) ![0, 0, 1, 1] S1x1x222x222.size inb_S1x1x224x224_S1x1x222x222_0_0_1_1

/-! ## What the body leaves in the output block -/

/-- The output block after the body, from the input block: zeros everywhere, then the 222×222 array of patch
    distances laid over the interior. The two stores as pieces, the LAST one first. -/
def outBlock (x0 : Vec F S1x3x224x224 .f32) : Vec F S1x1x224x224 .f32 :=
  View.canon [⟨rInt, k0_pay2 (interior (View.ld x0 rIn))⟩, ⟨rOut, k0_pay1 (k0_pay37 (F := F))⟩]

/-- The two pieces do not tile the block (the interior lies inside the whole), but they cover it: every index lies in
    the whole rectangle, the earlier store's. -/
theorem cover (p1 : rInt.shape.Idx → Elt F .f32) (p0 : rOut.shape.Idx → Elt F .f32) (y : S1x1x224x224.Idx) :
    ∃ pc ∈ ([⟨rInt, p1⟩, ⟨rOut, p0⟩] : List (View.Piece (Elt F) S1x1x224x224 .f32)), y ∈ pc.1.set :=
  ⟨⟨rOut, p0⟩, List.mem_cons_of_mem _ (List.mem_singleton_self _),
    View.mem_set_unit_zero (by funext a; fin_cases a <;> rfl) inb_S1x1x224x224_S1x1x224x224_0_0_0_0 y⟩

/-! ## The body's triple -/

set_option maxHeartbeats 1000000 in
/-- The kernel body on whole staging memrefs, the input's at read contents `x0` and the output's at anything, runs to
    the continuation holding the input's as it was and the output's at `outBlock x0`. The body loads the output
    memref twice; neither value is used, so the contents the stores leave do not depend on what the memref held:
    the first store is of the whole block. -/
theorem sound_kernel (c : Dev nD) (E : Set ℕ) (i : grid0.Coords) (arg1 : Memref sig .tc .vmem S1x3x224x224 .f32) (harg1 : arg1.IsWhole)
    (arg2 : Memref sig .tc .vmem S1x1x224x224 .f32) (harg2 : arg2.IsWhole)
    (x0 : Vec F S1x3x224x224 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock x0)) -∗ K ⟨⟩))
      ⊢ wp frame (wpE (defs₀ (F := F)) Variants.none c none) E (cc0__kernel i arg1 harg1 arg2 harg2) K := by
  simp only [cc0__kernel_eq_skeleton]; unfold cc0__kernel_skel
  simp only [k0_part1_eq_skeleton, k0_part2_eq_skeleton, k0_part3_eq_skeleton, k0_part4_eq_skeleton,
    k0_part5_eq_skeleton, k0_part6_eq_skeleton, k0_part7_eq_skeleton, k0_part8_eq_skeleton]
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover _ _)

/-! ## The pipeline's proof data -/

variable (m : (ℓ : Loc nD τ sig) → Buf (Elt F) ℓ) (ρ : Dev nD → PrngReg)

/-- The proof data of the one pipeline on core `c`: the arrays as the region finds them; after the body at point `t`
    the input's buffer at its block (the body only reads it) and the output's at `outBlock` of that block; the
    invariant the scoped rest and the generator register, untouched; nothing owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => outBlock (Gen.iblk m c 0 t)
  Φ _ := Pipeline.ΦA spec0 c
  q _ := fullShare
  owed _ := 0

/-- The proof data's arrays are the region-entry contents (the definition projected). -/
theorem A_eq (c : Dev nD) (w : Fin cfg0.W) : (dats m 0 c).A w = Gen.V m c (Pipeline.arrRef spec0 w) := by
  dsimp only [dats]

/-- What the body leaves, window by window (the definition's `match` reduced). -/
theorem after0_0 (c : Dev nD) (t : Fin cfg0.N) : (dats m 0 c).after 0 t = Gen.iblk m c 0 t := by dsimp only [dats]
theorem after0_1 (c : Dev nD) (t : Fin cfg0.N) : (dats m 0 c).after 1 t = outBlock (Gen.iblk m c 0 t) := by dsimp only [dats]

/-- The input's current staging buffer holds its block at every point, fetched there or not. -/
theorem before0_0 (c : Dev nD) (t : Fin cfg0.N) (d) : (dats m 0 c).before 0 t d = Gen.iblk m c 0 t :=
  Gen.before0_0_of m (dats m 0 c) (A_eq m c 0) (after0_0 m c) t d

/-! ## The body obligation, at a generic point -/

/-- What the body is called with at point `t`: the invariant, the core's dues, the input's buffer at its block and the
    output's at whatever the pipeline left there, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so the triple applies whatever the output's memref
    holds; the invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ _ (Gen.iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the proof data say (the
    output array: `outBlock` of each image's block, written back) and every other unscoped buffer as the region found it. -/
theorem run_main : θ_run defs (onTc (τ := τ) (main (F := F))) (s₀ m ρ) (Pipeline.FramePost cfgs (dats m) 0 (Gen.V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := Gen.V m) (hmain := Gen.hmain m Variants.none) (hA := A_eq m) (hΦ := fun _ _ => rfl)

/-- The frame: no execution changes the argument array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  Gen.frame_of m ρ (dats m) (A_eq m) (run_main m ρ)

end Cert.Kernel.Body

end
-- ==== Proof.Chain.lean ====
/-
  What the body computes from one image's block: the 222×222 array of largest patch distances, as one term over the
  skeleton's payloads, in the order the body's parts hand them on. The nine shifted 3×222×222 slices of the block
  (`v2` … `v10`), their squared norms over the channels (`v12` … `v28`), then the running maximum of the clamped
  squared distances through the 36 pairs, and the square root at the end (inside the last payload).
-/
import proofs.«154331_j50551765074334_1_alg».proof.Proof.Gen.KernelIdeal.Skeleton

noncomputable section

namespace Cert.KernelIdeal.Body

open Idealize.ShloMosaic Cert.KernelIdeal Cert.KernelIdeal.Gen

variable {F : FTy → Type} [FloatOps F]

/-- The 222×222 values the body stores into the interior of its output block, from the loaded input block. -/
def interior (v0 : Vec F S1x3x224x224 .f32) : FVec F S222x222 .f32 :=
  let v2 := k0_pay4 v0
  let v3 := k0_pay5 v0
  let v4 := k0_pay6 v0
  let v5 := k0_pay7 v0
  let v6 := k0_pay8 v0
  let v7 := k0_pay9 v0
  let v8 := k0_pay10 v0
  let v9 := k0_pay11 v0
  let v10 := k0_pay12 v0
  let v12 := k0_pay13 v0
  let v14 := k0_pay14 v0
  let v16 := k0_pay15 v0
  let v18 := k0_pay16 v0
  let v20 := k0_pay17 v0
  let v22 := k0_pay18 v0
  let v24 := k0_pay19 v0
  let v26 := k0_pay20 v0
  let v28 := k0_pay21 v0
  let v38 := k0_pay22 v0
  let v40 := k0_pay23 v0
  let v83 := k0_pay24 v2 v5 v6 v7 v8 v12 v16 v18 v20 v22 v24 v38 v40
  let v85 := k0_pay25 v2 v9
  let v128 := k0_pay26 v2 v3 v4 v5 v6 v10 v12 v14 v16 v18 v20 v26 v28 v83 v85
  let v130 := k0_pay27 v3 v7
  let v173 := k0_pay28 v3 v4 v5 v8 v9 v10 v14 v16 v18 v22 v24 v26 v28 v128 v130
  let v175 := k0_pay29 v4 v6
  let v218 := k0_pay30 v4 v7 v8 v9 v10 v16 v20 v22 v24 v26 v28 v173 v175
  let v220 := k0_pay31 v5 v6
  let v263 := k0_pay32 v5 v7 v8 v9 v10 v18 v20 v22 v24 v26 v28 v218 v220
  let v265 := k0_pay33 v6 v7
  let v308 := k0_pay34 v6 v7 v8 v9 v10 v20 v22 v24 v26 v28 v263 v265
  let v310 := k0_pay35 v7 v9
  k0_pay36 v7 v8 v9 v10 v22 v24 v26 v28 v308 v310

end Cert.KernelIdeal.Body

end
-- ==== Proof.BodyIdeal.lean ====
/-
  The kernel body at one grid point, and the run of the whole pipeline from it.

  At each point the body reads one image's block (1×3×224×224), computes from it a 222×222 array (the largest
  distance between the patches around a pixel), and writes the 1×1×224×224 output block twice: first zeros over the
  whole block, then the 222×222 array over the interior (rows and columns 1 … 222). So the block it leaves is a
  function of the input block alone: the interior holds the array, the one-pixel border holds zeros. It is stated as
  the canonical contents of the two stores, the later one first. The stores do not tile the block, since the interior
  lies inside the whole rectangle, but they cover it, because every index lies in the whole rectangle; that is all
  the canonical form needs. The body also reads the output block before each store; the values read are not used, so
  what the block held before does not matter.

  From the triple of the body follow the proof data of the pipeline (what each window's buffer holds after each
  point), the body obligation, the run of the program, and the frame: the argument array is left as it was.
-/
import proofs.«154331_j50551765074334_1_alg».proof.Proof.Chain
import proofs.«154331_j50551765074334_1_alg».proof.Proof.Gen.KernelIdeal.Frame
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses -/

/-- The whole input block (one image, three channels). -/
abbrev rIn : Rect S1x3x224x224 := Rect.unit (s := S1x3x224x224) ![0, 0, 0, 0] S1x3x224x224.size inb_S1x3x224x224_S1x3x224x224_0_0_0_0
/-- The whole output block. -/
abbrev rOut : Rect S1x1x224x224 := Rect.unit (s := S1x1x224x224) ![0, 0, 0, 0] S1x1x224x224.size inb_S1x1x224x224_S1x1x224x224_0_0_0_0
/-- The interior of the output block: rows and columns 1 … 222. -/
abbrev rInt : Rect S1x1x224x224 := Rect.unit (s := S1x1x224x224) ![0, 0, 1, 1] S1x1x222x222.size inb_S1x1x224x224_S1x1x222x222_0_0_1_1

/-! ## What the body leaves in the output block -/

/-- The output block after the body, from the input block: zeros everywhere, then the 222×222 array of patch
    distances laid over the interior. The two stores as pieces, the LAST one first. -/
def outBlock (x0 : Vec F S1x3x224x224 .f32) : Vec F S1x1x224x224 .f32 :=
  View.canon [⟨rInt, k0_pay2 (interior (View.ld x0 rIn))⟩, ⟨rOut, k0_pay1 (k0_pay37 (F := F))⟩]

/-- The two pieces do not tile the block (the interior lies inside the whole), but they cover it: every index lies in
    the whole rectangle, the earlier store's. -/
theorem cover (p1 : rInt.shape.Idx → Elt F .f32) (p0 : rOut.shape.Idx → Elt F .f32) (y : S1x1x224x224.Idx) :
    ∃ pc ∈ ([⟨rInt, p1⟩, ⟨rOut, p0⟩] : List (View.Piece (Elt F) S1x1x224x224 .f32)), y ∈ pc.1.set :=
  ⟨⟨rOut, p0⟩, List.mem_cons_of_mem _ (List.mem_singleton_self _),
    View.mem_set_unit_zero (by funext a; fin_cases a <;> rfl) inb_S1x1x224x224_S1x1x224x224_0_0_0_0 y⟩

/-! ## The body's triple -/

set_option maxHeartbeats 1000000 in
/-- The kernel body on whole staging memrefs, the input's at read contents `x0` and the output's at anything, runs to
    the continuation holding the input's as it was and the output's at `outBlock x0`. The body loads the output
    memref twice; neither value is used, so the contents the stores leave do not depend on what the memref held:
    the first store is of the whole block. -/
theorem sound_kernel (c : Dev nD) (E : Set ℕ) (i : grid0.Coords) (arg1 : Memref sig .tc .vmem S1x3x224x224 .f32) (harg1 : arg1.IsWhole)
    (arg2 : Memref sig .tc .vmem S1x1x224x224 .f32) (harg2 : arg2.IsWhole)
    (x0 : Vec F S1x3x224x224 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock x0)) -∗ K ⟨⟩))
      ⊢ wp frame (wpE (defs₀ (F := F)) Variants.none c none) E (cc0__kernel i arg1 harg1 arg2 harg2) K := by
  simp only [cc0__kernel_eq_skeleton]; unfold cc0__kernel_skel
  simp only [k0_part1_eq_skeleton, k0_part2_eq_skeleton, k0_part3_eq_skeleton, k0_part4_eq_skeleton,
    k0_part5_eq_skeleton, k0_part6_eq_skeleton, k0_part7_eq_skeleton, k0_part8_eq_skeleton]
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover _ _)

/-! ## The pipeline's proof data -/

variable (m : (ℓ : Loc nD τ sig) → Buf (Elt F) ℓ) (ρ : Dev nD → PrngReg)

/-- The proof data of the one pipeline on core `c`: the arrays as the region finds them; after the body at point `t`
    the input's buffer at its block (the body only reads it) and the output's at `outBlock` of that block; the
    invariant the scoped rest and the generator register, untouched; nothing owed; full shares. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => outBlock (Gen.iblk m c 0 t)
  Φ _ := Pipeline.ΦA spec0 c
  q _ := fullShare
  owed _ := 0

/-- The proof data's arrays are the region-entry contents (the definition projected). -/
theorem A_eq (c : Dev nD) (w : Fin cfg0.W) : (dats m 0 c).A w = Gen.V m c (Pipeline.arrRef spec0 w) := by
  dsimp only [dats]

/-- What the body leaves, window by window (the definition's `match` reduced). -/
theorem after0_0 (c : Dev nD) (t : Fin cfg0.N) : (dats m 0 c).after 0 t = Gen.iblk m c 0 t := by dsimp only [dats]
theorem after0_1 (c : Dev nD) (t : Fin cfg0.N) : (dats m 0 c).after 1 t = outBlock (Gen.iblk m c 0 t) := by dsimp only [dats]

/-- The input's current staging buffer holds its block at every point, fetched there or not. -/
theorem before0_0 (c : Dev nD) (t : Fin cfg0.N) (d) : (dats m 0 c).before 0 t d = Gen.iblk m c 0 t :=
  Gen.before0_0_of m (dats m 0 c) (A_eq m c 0) (after0_0 m c) t d

/-! ## The body obligation, at a generic point -/

/-- What the body is called with at point `t`: the invariant, the core's dues, the input's buffer at its block and the
    output's at whatever the pipeline left there, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds its block, so the triple applies whatever the output's memref
    holds; the invariant and the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ _ (Gen.iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the proof data say (the
    output array: `outBlock` of each image's block, written back) and every other unscoped buffer as the region found it. -/
theorem run_main : θ_run defs (onTc (τ := τ) (main (F := F))) (s₀ m ρ) (Pipeline.FramePost cfgs (dats m) 0 (Gen.V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := Gen.V m) (hmain := Gen.hmain m Variants.none) (hA := A_eq m) (hΦ := fun _ _ => rfl)

/-- The frame: no execution changes the argument array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  Gen.frame_of m ρ (dats m) (A_eq m) (run_main m ρ)

end Cert.KernelIdeal.Body

end
-- ==== Proof.Spec.lean ====
/-
  The two per-pixel values, as functions of the nine channel vectors of a 3×3 neighbourhood.

  At an output pixel the nine patches `P a` (`a = 3·i + j`, the neighbour at row offset `i` and column offset `j`)
  are vectors over the three channels. Both programs compute the largest Euclidean distance between two of them,
  from the squared distances `|P a|² + |P a'|² − 2·⟨P a, P a'⟩` clamped at zero:
  the kernel folds `max` from zero over the 36 pairs `a < a'` and takes one square root at the end (`kerVal`);
  the reference takes a guarded square root of each of the 81 ordered pairs and then their maximum (`distR`).
-/
import Idealize.ShloMosaic.PureOps.Ideal
import Idealize.ShloMosaic.Lib.ValueIdx

noncomputable section

namespace Cert.Spec

open Idealize.ShloMosaic Idealize.ShloMosaic.ValueIdx

/-- The literals the two programs share, as the extended reals their f32 patterns denote. -/
abbrev zero : EReal := Ideal.ofBits .f32 0x00000000#32
abbrev one : EReal := Ideal.ofBits .f32 0x3F800000#32
abbrev two : EReal := Ideal.ofBits .f32 0x40000000#32

/-- `|P a|²`, the sum over the channels as the kernel's lane-free reduction reads. -/
def sq (P : Fin 9 → Fin 3 → EReal) (a : Fin 9) : EReal := ∑ c : Fin 3, P a c * P a c

/-- `⟨P a, P a'⟩`. -/
def gram (P : Fin 9 → Fin 3 → EReal) (a a' : Fin 9) : EReal := ∑ c : Fin 3, P a c * P a' c

/-- The kernel's clamped squared distance of patches `a` and `a'`. -/
def d2 (P : Fin 9 → Fin 3 → EReal) (a a' : Fin 9) : EReal := max ((sq P a + sq P a') - two * gram P a a') zero

/-- The 36 pairs `a < a'`, in the order the kernel visits them. -/
def pairs : List (Fin 9 × Fin 9) :=
  [(0, 1), (0, 2), (0, 3), (0, 4), (0, 5), (0, 6), (0, 7), (0, 8), (1, 2), (1, 3), (1, 4), (1, 5), (1, 6), (1, 7), (1, 8), (2, 3), (2, 4), (2, 5), (2, 6), (2, 7), (2, 8), (3, 4), (3, 5), (3, 6), (3, 7), (3, 8), (4, 5), (4, 6), (4, 7), (4, 8), (5, 6), (5, 7), (5, 8), (6, 7), (6, 8), (7, 8)]

/-- The kernel's value at a pixel: the root of the running maximum, from zero, of the clamped squared distances. -/
def kerVal (P : Fin 9 → Fin 3 → EReal) : EReal :=
  Ideal.sqrt (pairs.foldl (fun m ab => max m (d2 P ab.1 ab.2)) zero)

/-- `|P a|²` as the reference's host sum reads: the initial value plus the sum. -/
def sqR (P : Fin 9 → Fin 3 → EReal) (a : Fin 9) : EReal := zero + ∑ c : Fin 3, P a c * P a c

/-- The reference's clamped squared distance of patches `p` and `q` (any ordered pair). -/
def d2R (P : Fin 9 → Fin 3 → EReal) (p q : Fin 9) : EReal := max ((sqR P p + sqR P q) - two * gram P p q) zero

/-- The reference's guarded root of it: `√d` where `d > 0`, zero elsewhere (the inner guard replaces a
    non-positive `d` by one before the root is taken). -/
def distR (P : Fin 9 → Fin 3 → EReal) (p q : Fin 9) : EReal :=
  Scalar.select (Ideal.cmp .ogt (d2R P p q) zero)
    (Ideal.sqrt (Scalar.select (Ideal.cmp .ogt (d2R P p q) zero) (d2R P p q) one)) zero

/-- The reference's value at a pixel: the maximum, from `-∞`, over all 81 ordered pairs. -/
def refVal (P : Fin 9 → Fin 3 → EReal) : EReal :=
  (Finset.univ : Finset (Fin 9 × Fin 9)).fold max ⊥ (fun pq => distR P pq.1 pq.2)

/-- The nine patches at output pixel `(h, w)` of image `b`, read off the whole argument array. -/
def patch (x : (⟨4, ![32, 3, 224, 224]⟩ : Shape).Idx → EReal) (b : Fin 32) (h w : Fin 222) : Fin 9 → Fin 3 → EReal :=
  fun a c => x (ix4 b c ⟨h.val + a.val / 3, by omega⟩ ⟨w.val + a.val % 3, by omega⟩)

/-- The same, read off one image's block. -/
def patchBlk (v : (⟨4, ![1, 3, 224, 224]⟩ : Shape).Idx → EReal) (h w : Fin 222) : Fin 9 → Fin 3 → EReal :=
  fun a c => v (ix4 0 c ⟨h.val + a.val / 3, by omega⟩ ⟨w.val + a.val % 3, by omega⟩)

end Cert.Spec

end
-- ==== Proof.KernelValue.lean ====
/-
  The body's arithmetic at one pixel, over the extended reals.

  From one image's block `v0` (1×3×224×224) the body cuts nine 3×222×222 slices, the slice number `a = 3·i + j` shifted by
  `i` rows and `j` columns, so that at the pixel `(h, w)` slice `a` holds the channel vector `P a` of the neighbour at
  `(h + i, w + j)`. It then forms the nine squared norms `|P a|²` as sums over the three channels, and runs through the
  36 pairs `a < a'` in lexicographic order, each time replacing the running maximum `m`, which starts at zero, by
  `max m (max ((|P a|² + |P a'|²) − 2·⟨P a, P a'⟩) 0)`; one square root ends the chain.

  The payloads are first rewritten, for any float instance, as terms over three small vector functions — the channel
  sum of a product of two slices (`dot`), one step of the running maximum (`step`) and the zero it starts from
  (`start`) — by unfolding alone. At the extended reals each of the three reads at a pixel as the corresponding scalar
  expression: a slice reads the block at the shifted position, the reduction over the channel axis is the sum over
  `Fin 3`, and the pointwise operations are the extended reals' own. Put together, the chain at `(h, w)` is literally
  the fold that defines the pixel's value in the specification.

  Also here: the two shape casts around the stores. The interior values stored as a 1×1×222×222 block keep their
  place, and the block of zeros the body stores first is zero at every index.
-/
import proofs.«154331_j50551765074334_1_alg».proof.Proof.Chain
import proofs.«154331_j50551765074334_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

namespace Pixel

variable {F : FTy → Type} [FloatOps F]

/-- The sum over the three channels of the product of two slices. -/
def dot (x y : FVec F S3x222x222 .f32) : FVec F S222x222 .f32 :=
  multiReduction .add [0] S222x222 (mulf x y) 0x00000000#32 reduces_S3x222x222_S222x222 (.inl rfl) rfl

/-- One step of the running maximum: the maximum so far against the squared distance
    `(sa + sb) - 2 * g` clamped at zero. -/
def step (m sa sb g : FVec F S222x222 .f32) : FVec F S222x222 .f32 :=
  maximumf m (maximumf (subf (addf sa sb) (mulf (broadcast S222x222 (Scalar.ofBits .f32 0x40000000#32)) g))
    (broadcast S222x222 (Scalar.ofBits .f32 0x00000000#32)))

/-- The maximum the fold starts from: zero everywhere. -/
def start : FVec F S222x222 .f32 := broadcast S222x222 (Scalar.ofBits .f32 0x00000000#32)

/-! The payloads as squared norms, inner products and steps. -/

theorem pay13_eq (v0 : Vec F S1x3x224x224 .f32) : k0_pay13 v0 = dot (k0_pay4 v0) (k0_pay4 v0) := rfl
theorem pay14_eq (v0 : Vec F S1x3x224x224 .f32) : k0_pay14 v0 = dot (k0_pay5 v0) (k0_pay5 v0) := rfl
theorem pay15_eq (v0 : Vec F S1x3x224x224 .f32) : k0_pay15 v0 = dot (k0_pay6 v0) (k0_pay6 v0) := rfl
theorem pay16_eq (v0 : Vec F S1x3x224x224 .f32) : k0_pay16 v0 = dot (k0_pay7 v0) (k0_pay7 v0) := rfl
theorem pay17_eq (v0 : Vec F S1x3x224x224 .f32) : k0_pay17 v0 = dot (k0_pay8 v0) (k0_pay8 v0) := rfl
theorem pay18_eq (v0 : Vec F S1x3x224x224 .f32) : k0_pay18 v0 = dot (k0_pay9 v0) (k0_pay9 v0) := rfl
theorem pay19_eq (v0 : Vec F S1x3x224x224 .f32) : k0_pay19 v0 = dot (k0_pay10 v0) (k0_pay10 v0) := rfl
theorem pay20_eq (v0 : Vec F S1x3x224x224 .f32) : k0_pay20 v0 = dot (k0_pay11 v0) (k0_pay11 v0) := rfl
theorem pay21_eq (v0 : Vec F S1x3x224x224 .f32) : k0_pay21 v0 = dot (k0_pay12 v0) (k0_pay12 v0) := rfl

theorem pay22_eq (v0 : Vec F S1x3x224x224 .f32) :
    k0_pay22 v0 = step start (k0_pay13 v0) (k0_pay14 v0) (dot (k0_pay4 v0) (k0_pay5 v0)) := rfl
theorem pay23_eq (v0 : Vec F S1x3x224x224 .f32) : k0_pay23 v0 = dot (k0_pay4 v0) (k0_pay6 v0) := rfl

theorem pay24_eq (v2 v5 v6 v7 v8 : FVec F S3x222x222 .f32) (v12 v16 v18 v20 v22 v24 v38 v40 : FVec F S222x222 .f32) :
    k0_pay24 v2 v5 v6 v7 v8 v12 v16 v18 v20 v22 v24 v38 v40
      = step (step (step (step (step v38 v12 v16 v40) v12 v18 (dot v2 v5)) v12 v20 (dot v2 v6)) v12 v22 (dot v2 v7))
          v12 v24 (dot v2 v8) := rfl
theorem pay25_eq (v2 v9 : FVec F S3x222x222 .f32) : k0_pay25 v2 v9 = dot v2 v9 := rfl

theorem pay26_eq (v2 v3 v4 v5 v6 v10 : FVec F S3x222x222 .f32) (v12 v14 v16 v18 v20 v26 v28 v83 v85 : FVec F S222x222 .f32) :
    k0_pay26 v2 v3 v4 v5 v6 v10 v12 v14 v16 v18 v20 v26 v28 v83 v85
      = step (step (step (step (step v83 v12 v26 v85) v12 v28 (dot v2 v10)) v14 v16 (dot v3 v4)) v14 v18 (dot v3 v5))
          v14 v20 (dot v3 v6) := rfl
theorem pay27_eq (v3 v7 : FVec F S3x222x222 .f32) : k0_pay27 v3 v7 = dot v3 v7 := rfl

theorem pay28_eq (v3 v4 v5 v8 v9 v10 : FVec F S3x222x222 .f32) (v14 v16 v18 v22 v24 v26 v28 v128 v130 : FVec F S222x222 .f32) :
    k0_pay28 v3 v4 v5 v8 v9 v10 v14 v16 v18 v22 v24 v26 v28 v128 v130
      = step (step (step (step (step v128 v14 v22 v130) v14 v24 (dot v3 v8)) v14 v26 (dot v3 v9)) v14 v28 (dot v3 v10))
          v16 v18 (dot v4 v5) := rfl
theorem pay29_eq (v4 v6 : FVec F S3x222x222 .f32) : k0_pay29 v4 v6 = dot v4 v6 := rfl

theorem pay30_eq (v4 v7 v8 v9 v10 : FVec F S3x222x222 .f32) (v16 v20 v22 v24 v26 v28 v173 v175 : FVec F S222x222 .f32) :
    k0_pay30 v4 v7 v8 v9 v10 v16 v20 v22 v24 v26 v28 v173 v175
      = step (step (step (step (step v173 v16 v20 v175) v16 v22 (dot v4 v7)) v16 v24 (dot v4 v8)) v16 v26 (dot v4 v9))
          v16 v28 (dot v4 v10) := rfl
theorem pay31_eq (v5 v6 : FVec F S3x222x222 .f32) : k0_pay31 v5 v6 = dot v5 v6 := rfl

theorem pay32_eq (v5 v7 v8 v9 v10 : FVec F S3x222x222 .f32) (v18 v20 v22 v24 v26 v28 v218 v220 : FVec F S222x222 .f32) :
    k0_pay32 v5 v7 v8 v9 v10 v18 v20 v22 v24 v26 v28 v218 v220
      = step (step (step (step (step v218 v18 v20 v220) v18 v22 (dot v5 v7)) v18 v24 (dot v5 v8)) v18 v26 (dot v5 v9))
          v18 v28 (dot v5 v10) := rfl
theorem pay33_eq (v6 v7 : FVec F S3x222x222 .f32) : k0_pay33 v6 v7 = dot v6 v7 := rfl

theorem pay34_eq (v6 v7 v8 v9 v10 : FVec F S3x222x222 .f32) (v20 v22 v24 v26 v28 v263 v265 : FVec F S222x222 .f32) :
    k0_pay34 v6 v7 v8 v9 v10 v20 v22 v24 v26 v28 v263 v265
      = step (step (step (step (step v263 v20 v22 v265) v20 v24 (dot v6 v8)) v20 v26 (dot v6 v9)) v20 v28 (dot v6 v10))
          v22 v24 (dot v7 v8) := rfl
theorem pay35_eq (v7 v9 : FVec F S3x222x222 .f32) : k0_pay35 v7 v9 = dot v7 v9 := rfl

theorem pay36_eq (v7 v8 v9 v10 : FVec F S3x222x222 .f32) (v22 v24 v26 v28 v308 v310 : FVec F S222x222 .f32) :
    k0_pay36 v7 v8 v9 v10 v22 v24 v26 v28 v308 v310
      = sqrt (step (step (step (step (step v308 v22 v26 v310) v22 v28 (dot v7 v10)) v24 v26 (dot v8 v9))
          v24 v28 (dot v8 v10)) v26 v28 (dot v9 v10)) := rfl

/-! The layout operations read at an index. -/

/-- Dropping the block's leading unit axis reads `(0, c, p, q)` at `(c, p, q)`. -/
theorem pay3_apply (v0 : Vec Ideal S1x3x224x224 .f32) (c : Fin 3) (p q : Fin 224) :
    k0_pay3 (F := Ideal) v0 (ix3 c p q) = v0 (ix4 0 c p q) := by
  unfold k0_pay3
  exact shapeCast_1abc_abc_apply v0 _ c p q

/-- The slice at row offset `i` and column offset `j` reads `(c, p + i, q + j)` at `(c, p, q)`. -/
theorem slice_read (x : FVec Ideal S3x224x224 .f32) (i j : Nat) (hs : S3x224x224.Slices ![0, i, j] S3x222x222)
    (c : Fin 3) (p q : Fin 222) (hi : i ≤ 2) (hj : j ≤ 2) :
    extractStridedSlice S3x222x222 ![0, i, j] x hs (ix3 c p q)
      = x (ix3 c (⟨p.val + i, by omega⟩ : Fin 224) (⟨q.val + j, by omega⟩ : Fin 224)) :=
  extractStridedSlice_apply _ x hs _ _ fun a => match a with
    | ⟨0, _⟩ => by show c.val = 0 + c.val; omega
    | ⟨1, _⟩ => by show p.val + i = i + p.val; omega
    | ⟨2, _⟩ => by show q.val + j = j + q.val; omega

/-- The reduction over the channel axis is the sum over the three channels. -/
theorem sum_read (z : FVec Ideal S3x222x222 .f32) (p q : Fin 222) :
    multiReduction (F := Ideal) .add [0] S222x222 z 0x00000000#32 reduces_S3x222x222_S222x222 (.inl rfl) rfl (ix2 p q)
      = ∑ c : Fin 3, z (ix3 c p q) := by
  refine (Ideal.multiReduction_add_single z 0x00000000#32 reduces_S3x222x222_S222x222 (.inl rfl) rfl (ix2 p q)).trans ?_
  refine Finset.sum_congr rfl fun c _ => congrArg z ?_
  funext a
  match a with
  | ⟨0, _⟩ => rfl
  | ⟨1, _⟩ => rfl
  | ⟨2, _⟩ => rfl

/-! The nine slices are the nine patches of the pixel's neighbourhood. -/

section Patches
variable (v0 : Vec Ideal S1x3x224x224 .f32) (c : Fin 3) (h w : Fin 222)

theorem pay4_apply : k0_pay4 (F := Ideal) v0 (ix3 c h w) = Cert.Spec.patchBlk v0 h w 0 c := by
  unfold k0_pay4
  exact (slice_read (k0_pay3 v0) 0 0 _ c h w (by omega) (by omega)).trans (pay3_apply v0 c _ _)
theorem pay5_apply : k0_pay5 (F := Ideal) v0 (ix3 c h w) = Cert.Spec.patchBlk v0 h w 1 c := by
  unfold k0_pay5
  exact (slice_read (k0_pay3 v0) 0 1 _ c h w (by omega) (by omega)).trans (pay3_apply v0 c _ _)
theorem pay6_apply : k0_pay6 (F := Ideal) v0 (ix3 c h w) = Cert.Spec.patchBlk v0 h w 2 c := by
  unfold k0_pay6
  exact (slice_read (k0_pay3 v0) 0 2 _ c h w (by omega) (by omega)).trans (pay3_apply v0 c _ _)
theorem pay7_apply : k0_pay7 (F := Ideal) v0 (ix3 c h w) = Cert.Spec.patchBlk v0 h w 3 c := by
  unfold k0_pay7
  exact (slice_read (k0_pay3 v0) 1 0 _ c h w (by omega) (by omega)).trans (pay3_apply v0 c _ _)
theorem pay8_apply : k0_pay8 (F := Ideal) v0 (ix3 c h w) = Cert.Spec.patchBlk v0 h w 4 c := by
  unfold k0_pay8
  exact (slice_read (k0_pay3 v0) 1 1 _ c h w (by omega) (by omega)).trans (pay3_apply v0 c _ _)
theorem pay9_apply : k0_pay9 (F := Ideal) v0 (ix3 c h w) = Cert.Spec.patchBlk v0 h w 5 c := by
  unfold k0_pay9
  exact (slice_read (k0_pay3 v0) 1 2 _ c h w (by omega) (by omega)).trans (pay3_apply v0 c _ _)
theorem pay10_apply : k0_pay10 (F := Ideal) v0 (ix3 c h w) = Cert.Spec.patchBlk v0 h w 6 c := by
  unfold k0_pay10
  exact (slice_read (k0_pay3 v0) 2 0 _ c h w (by omega) (by omega)).trans (pay3_apply v0 c _ _)
theorem pay11_apply : k0_pay11 (F := Ideal) v0 (ix3 c h w) = Cert.Spec.patchBlk v0 h w 7 c := by
  unfold k0_pay11
  exact (slice_read (k0_pay3 v0) 2 1 _ c h w (by omega) (by omega)).trans (pay3_apply v0 c _ _)
theorem pay12_apply : k0_pay12 (F := Ideal) v0 (ix3 c h w) = Cert.Spec.patchBlk v0 h w 8 c := by
  unfold k0_pay12
  exact (slice_read (k0_pay3 v0) 2 2 _ c h w (by omega) (by omega)).trans (pay3_apply v0 c _ _)

end Patches

/-! The vocabulary at an index, at the extended reals. -/

theorem dot_apply (x y : FVec Ideal S3x222x222 .f32) (p q : Fin 222) :
    dot (F := Ideal) x y (ix2 p q) = ∑ c : Fin 3, x (ix3 c p q) * y (ix3 c p q) :=
  sum_read (mulf x y) p q

theorem step_apply (m sa sb g : FVec Ideal S222x222 .f32) (i : S222x222.Idx) :
    step (F := Ideal) m sa sb g i = max (m i) (max ((sa i + sb i) - Cert.Spec.two * g i) Cert.Spec.zero) := rfl

theorem start_apply (i : S222x222.Idx) : start (F := Ideal) i = Cert.Spec.zero := rfl

theorem sqrt_apply (x : FVec Ideal S222x222 .f32) (i : S222x222.Idx) : sqrt x i = Ideal.sqrt (x i) := rfl

end Pixel

open Pixel

/-! The body's interior values at a pixel. -/

/-- At the pixel `(h, w)` the body's chain of payloads is the root of the running maximum, from zero, of the 36 clamped
    squared distances between the pixel's nine patches, visited in the order `(0,1), (0,2), …, (7,8)`. -/
theorem interior_apply (v0 : Vec Ideal S1x3x224x224 .f32) (h w : Fin 222) :
    interior (F := Ideal) v0 (ix2 h w) = Cert.Spec.kerVal (Cert.Spec.patchBlk v0 h w) := by
  unfold interior
  simp only [pay36_eq, pay35_eq, pay34_eq, pay33_eq, pay32_eq, pay31_eq, pay30_eq, pay29_eq, pay28_eq, pay27_eq,
    pay26_eq, pay25_eq, pay24_eq, pay23_eq, pay22_eq, pay21_eq, pay20_eq, pay19_eq, pay18_eq, pay17_eq, pay16_eq,
    pay15_eq, pay14_eq, pay13_eq]
  simp only [sqrt_apply, step_apply, start_apply, dot_apply, pay4_apply, pay5_apply, pay6_apply, pay7_apply,
    pay8_apply, pay9_apply, pay10_apply, pay11_apply, pay12_apply]
  simp only [Cert.Spec.kerVal, Cert.Spec.pairs, List.foldl, Cert.Spec.d2, Cert.Spec.sq, Cert.Spec.gram]

/-- Stored as a `1×1×222×222` block, the interior values keep their place: `(0, 0, h, w)` reads `(h, w)`. -/
theorem pay2_apply (v : FVec Ideal S222x222 .f32) (h w : Fin 222) :
    k0_pay2 (F := Ideal) v (ix4 0 0 h w) = v (ix2 h w) := by
  unfold k0_pay2
  exact shapeCast_apply v _ _ _ (by
    rw [Shape.rowMajor_val_two, Shape.rowMajor_val_four]
    show h.val * 222 + w.val = ((0 * 1 + 0) * 222 + h.val) * 222 + w.val
    omega)

/-- The block the body stores first is zero everywhere. -/
theorem pay1_zero (j : S1x1x224x224.Idx) :
    k0_pay1 (F := Ideal) (k0_pay37 (F := Ideal)) j = Cert.Spec.zero := rfl

end Cert.KernelIdeal.Body

end
-- ==== Proof.Math.lean ====
/-
  The two per-pixel values agree when the nine patches are real vectors.

  With real entries every quantity is a real number: the squared norms, the inner products, and the clamped squared
  distances `D a a' = max (|P a|² + |P a'|² − 2·⟨P a, P a'⟩) 0 ≥ 0`. `D` is symmetric (the inner product is), and
  `D a a = 0` because `⟨P a, P a⟩ = |P a|²` — this is where finiteness is used: on the extended reals the difference
  of two infinite squared norms would not cancel. The reference's guarded root of `D` is `√D` (the guard only replaces
  `√0` by the `0` it equals). The square root is monotone, so the root of a running maximum is the running maximum of
  the roots; the kernel's 36 pairs `a < a'` and the starting value `0 = √(D a a)` are then, by symmetry, exactly the
  81 values the reference maximises over: each side is below every upper bound of the other.
-/
import proofs.«154331_j50551765074334_1_alg».proof.Proof.Spec
import Idealize.ShloMosaic.PureOps.Ideal.Laws

noncomputable section

namespace Cert.Spec

open Idealize.ShloMosaic

/-! ## The shared literals -/

theorem zero_eq : zero = ((0 : ℝ) : EReal) := by
  show Ideal.ofBits .f32 0x00000000#32 = _
  rw [Ideal.ofBits_zero_f32]; rfl

theorem one_eq : one = ((1 : ℝ) : EReal) := by
  show Ideal.ofBits .f32 0x3F800000#32 = _
  simp [Ideal.ofBits, Ideal.ieee, -EReal.coe_mul]; norm_num

theorem two_eq : two = ((2 : ℝ) : EReal) := by
  show Ideal.ofBits .f32 0x40000000#32 = _
  simp [Ideal.ofBits, Ideal.ieee, -EReal.coe_mul]; norm_num

/-! ## A running maximum over a list -/

/-- A running maximum from `z` is below `u` exactly when `z` and every visited value are. -/
theorem foldl_max_le_iff {α β : Type} [LinearOrder α] (g : β → α) (l : List β) (z u : α) :
    l.foldl (fun m x => max m (g x)) z ≤ u ↔ z ≤ u ∧ ∀ x ∈ l, g x ≤ u := by
  induction l generalizing z with
  | nil => simp
  | cons x l ih =>
    rw [List.foldl_cons, ih, max_le_iff]
    constructor
    · rintro ⟨⟨hz, hx⟩, hl⟩
      exact ⟨hz, fun y hy => by
        rcases List.mem_cons.mp hy with rfl | hy
        · exact hx
        · exact hl y hy⟩
    · rintro ⟨hz, hl⟩
      exact ⟨⟨hz, hl x (List.mem_cons_self)⟩, fun y hy => hl y (List.mem_cons_of_mem _ hy)⟩

theorem le_foldl_max_init {α β : Type} [LinearOrder α] (g : β → α) (l : List β) (z : α) :
    z ≤ l.foldl (fun m x => max m (g x)) z :=
  ((foldl_max_le_iff g l z _).mp le_rfl).1

theorem le_foldl_max_of_mem {α β : Type} [LinearOrder α] (g : β → α) (l : List β) (z : α) {x : β} (hx : x ∈ l) :
    g x ≤ l.foldl (fun m x => max m (g x)) z :=
  ((foldl_max_le_iff g l z _).mp le_rfl).2 x hx

/-- A monotone map of a running maximum is the running maximum of the mapped values. -/
theorem map_foldl_max {α γ β : Type} [LinearOrder α] [LinearOrder γ] (s : α → γ) (hs : Monotone s) (g : β → α)
    (l : List β) (z : α) :
    s (l.foldl (fun m x => max m (g x)) z) = l.foldl (fun m x => max m (s (g x))) (s z) := by
  induction l generalizing z with
  | nil => rfl
  | cons x l ih => rw [List.foldl_cons, List.foldl_cons, ih, hs.map_max]

/-- Every pair `p < q` is among the 36 the kernel visits. -/
theorem mem_pairs : ∀ p q : Fin 9, p < q → (p, q) ∈ pairs := by decide

/-! ## The quantities over real patches -/

/-- `|R a|²`, `⟨R a, R a'⟩` and the clamped squared distance, for real patches. -/
def sqr (R : Fin 9 → Fin 3 → ℝ) (a : Fin 9) : ℝ := ∑ c : Fin 3, R a c * R a c
def gramr (R : Fin 9 → Fin 3 → ℝ) (a a' : Fin 9) : ℝ := ∑ c : Fin 3, R a c * R a' c
def d2r (R : Fin 9 → Fin 3 → ℝ) (a a' : Fin 9) : ℝ := max ((sqr R a + sqr R a') - 2 * gramr R a a') 0

theorem d2r_nonneg (R : Fin 9 → Fin 3 → ℝ) (a a' : Fin 9) : 0 ≤ d2r R a a' := le_max_right _ _

theorem gramr_comm (R : Fin 9 → Fin 3 → ℝ) (a a' : Fin 9) : gramr R a a' = gramr R a' a :=
  Finset.sum_congr rfl fun c _ => mul_comm _ _

theorem d2r_symm (R : Fin 9 → Fin 3 → ℝ) (a a' : Fin 9) : d2r R a a' = d2r R a' a := by
  unfold d2r; rw [add_comm (sqr R a), gramr_comm]

/-- A patch is at distance zero from itself. -/
theorem d2r_self (R : Fin 9 → Fin 3 → ℝ) (a : Fin 9) : d2r R a a = 0 := by
  unfold d2r
  have h : gramr R a a = sqr R a := rfl
  rw [h, show sqr R a + sqr R a - 2 * sqr R a = 0 by ring]
  exact max_self 0

variable (R : Fin 9 → Fin 3 → ℝ)

local notation "PR" => (fun (a : Fin 9) (c : Fin 3) => ((R a c : ℝ) : EReal))

theorem sq_coe (a : Fin 9) : sq PR a = ((sqr R a : ℝ) : EReal) := by
  simp only [sq, sqr, Fin.sum_univ_three, EReal.coe_add, EReal.coe_mul]

theorem gram_coe (a a' : Fin 9) : gram PR a a' = ((gramr R a a' : ℝ) : EReal) := by
  simp only [gram, gramr, Fin.sum_univ_three, EReal.coe_add, EReal.coe_mul]

theorem d2_coe (a a' : Fin 9) : d2 PR a a' = ((d2r R a a' : ℝ) : EReal) := by
  unfold d2 d2r
  rw [sq_coe, sq_coe, gram_coe, two_eq, zero_eq, ← EReal.coe_add, ← EReal.coe_mul, ← EReal.coe_sub]
  exact (EReal.coe_strictMono.monotone.map_max).symm

theorem sqR_eq (P : Fin 9 → Fin 3 → EReal) (a : Fin 9) : sqR P a = sq P a := by
  unfold sqR sq
  rw [show zero = (0 : EReal) from Ideal.ofBits_zero_f32, zero_add]

theorem d2R_eq (P : Fin 9 → Fin 3 → EReal) (p q : Fin 9) : d2R P p q = d2 P p q := by
  unfold d2R d2; rw [sqR_eq, sqR_eq]

/-- The reference's guarded root is the root. -/
theorem distR_coe (p q : Fin 9) : distR PR p q = ((Real.sqrt (d2r R p q) : ℝ) : EReal) := by
  unfold distR
  rw [d2R_eq, d2_coe, zero_eq]
  rcases (d2r_nonneg R p q).lt_or_eq with h | h
  · have hc : Ideal.cmp .ogt ((d2r R p q : ℝ) : EReal) ((0 : ℝ) : EReal) = 1#1 := by
      have : ((0 : ℝ) : EReal) < ((d2r R p q : ℝ) : EReal) := EReal.coe_lt_coe_iff.mpr h
      simp only [Ideal.cmp, this, decide_true]; rfl
    rw [hc, ValueIdx.select_one, ValueIdx.select_one, Ideal.sqrt_coe, if_neg (not_lt.mpr h.le)]
  · have hc : Ideal.cmp .ogt ((d2r R p q : ℝ) : EReal) ((0 : ℝ) : EReal) = 0#1 := by
      rw [← h]
      simp only [Ideal.cmp, lt_self_iff_false, decide_false]; rfl
    rw [hc, ValueIdx.select_zero, ← h, Real.sqrt_zero]

/-! ## The two values agree -/

theorem kerVal_coe :
    kerVal PR = ((pairs.foldl (fun m ab => max m (Real.sqrt (d2r R ab.1 ab.2))) (Real.sqrt 0) : ℝ) : EReal) := by
  unfold kerVal
  have hf : (fun (m : EReal) (ab : Fin 9 × Fin 9) => max m (d2 PR ab.1 ab.2))
      = fun m ab => max m (((d2r R ab.1 ab.2 : ℝ)) : EReal) := by
    funext m ab; rw [d2_coe]
  rw [hf, zero_eq, ← map_foldl_max (fun r : ℝ => (r : EReal)) EReal.coe_strictMono.monotone
    (fun ab : Fin 9 × Fin 9 => d2r R ab.1 ab.2) pairs 0]
  rw [Ideal.sqrt_coe, if_neg (not_lt.mpr (le_foldl_max_init _ _ _))]
  rw [map_foldl_max Real.sqrt (fun _ _ h => Real.sqrt_le_sqrt h)
    (fun ab : Fin 9 × Fin 9 => d2r R ab.1 ab.2) pairs 0]

theorem refVal_coe :
    refVal PR = (Finset.univ : Finset (Fin 9 × Fin 9)).fold max ⊥
      (fun pq => ((Real.sqrt (d2r R pq.1 pq.2) : ℝ) : EReal)) := by
  unfold refVal
  congr 1
  funext pq
  exact distR_coe R pq.1 pq.2

theorem kerVal_eq_refVal_coe : kerVal PR = refVal PR := by
  rw [kerVal_coe, refVal_coe]
  apply le_antisymm
  · -- the kernel's value is below the reference's: zero is the diagonal's root, each visited pair is one of the 81
    rw [map_foldl_max (fun r : ℝ => (r : EReal)) EReal.coe_strictMono.monotone, foldl_max_le_iff]
    refine ⟨?_, fun ab _ => ?_⟩
    · refine (Finset.le_fold_max _).mpr (Or.inr ⟨((0 : Fin 9), (0 : Fin 9)), Finset.mem_univ _, ?_⟩)
      rw [d2r_self]
    · exact (Finset.le_fold_max _).mpr (Or.inr ⟨ab, Finset.mem_univ _, le_rfl⟩)
  · -- each of the 81 roots is below the kernel's value: by the order of the pair
    refine (Finset.fold_max_le _).mpr ⟨bot_le, fun pq _ => EReal.coe_le_coe_iff.mpr ?_⟩
    obtain ⟨p, q⟩ := pq
    rcases lt_trichotomy p q with h | h | h
    · exact le_foldl_max_of_mem (fun ab : Fin 9 × Fin 9 => Real.sqrt (d2r R ab.1 ab.2)) pairs _ (mem_pairs p q h)
    · subst h
      show Real.sqrt (d2r R p p) ≤ _
      rw [d2r_self]
      exact le_foldl_max_init _ _ _
    · show Real.sqrt (d2r R p q) ≤ _
      rw [d2r_symm]
      exact le_foldl_max_of_mem (fun ab : Fin 9 × Fin 9 => Real.sqrt (d2r R ab.1 ab.2)) pairs _ (mem_pairs q p h)

/-- At a pixel whose nine patches have real entries the kernel's value is the reference's. -/
theorem kerVal_eq_refVal (P : Fin 9 → Fin 3 → EReal) (hP : ∀ a c, ∃ r : ℝ, P a c = (r : EReal)) :
    kerVal P = refVal P := by
  choose R hR using hP
  have hPR : P = fun a c => ((R a c : ℝ) : EReal) := funext fun a => funext fun c => hR a c
  rw [hPR]
  exact kerVal_eq_refVal_coe R

end Cert.Spec

end
-- ==== Proof.Whole.lean ====
/-
  The whole result array, index by index. The result is 32 images of one channel, 224 × 224; the one-pixel border of each
  image is zero, and the interior pixel at row `p + 1`, column `q + 1` (`p, q < 222`) holds the largest distance among
  the nine patches at `(p, q)`. `GK` is that array with the kernel's per-pixel value, `GR` with the reference's; they are
  one array when every entry of the argument is a real number.
-/
import proofs.«154331_j50551765074334_1_alg».proof.Proof.Spec
import proofs.«154331_j50551765074334_1_alg».proof.Proof.Math

noncomputable section

namespace Cert.Spec

open Idealize.ShloMosaic Idealize.ShloMosaic.ValueIdx

abbrev SArg : Shape := ⟨4, ![32, 3, 224, 224]⟩
abbrev SRes : Shape := ⟨4, ![32, 1, 224, 224]⟩

/-- The row (or column) of the 222 × 222 interior that row `k` of the padded image is, for `1 ≤ k ≤ 222`. -/
def inner (k : Nat) : Fin 222 := ⟨(k - 1) % 222, Nat.mod_lt _ (by norm_num)⟩

theorem inner_succ (p : Fin 222) : inner (p.val + 1) = p := by
  apply Fin.ext
  show (p.val + 1 - 1) % 222 = p.val
  rw [Nat.add_sub_cancel, Nat.mod_eq_of_lt p.isLt]

/-- An index of the result is interior when it is off the one-pixel border. -/
def IsInt (j : SRes.Idx) : Prop := 1 ≤ (j 2).val ∧ (j 2).val ≤ 222 ∧ 1 ≤ (j 3).val ∧ (j 3).val ≤ 222

instance (j : SRes.Idx) : Decidable (IsInt j) := by unfold IsInt; infer_instance

/-- The image an index of the result belongs to. -/
def img (j : SRes.Idx) : Fin 32 := ⟨(j 0).val, (j 0).isLt⟩

/-- The interior index of image `b` at pixel `(p, q)` of the 222 × 222 result. -/
def pix (b : Fin 32) (p q : Fin 222) : SRes.Idx :=
  ix4 b (0 : Fin 1) ⟨p.val + 1, by have := p.isLt; omega⟩ ⟨q.val + 1, by have := q.isLt; omega⟩

theorem isInt_pix (b : Fin 32) (p q : Fin 222) : IsInt (pix b p q) := by
  have hp := p.isLt
  have hq := q.isLt
  refine ⟨?_, ?_, ?_, ?_⟩
  · show 1 ≤ p.val + 1; omega
  · show p.val + 1 ≤ 222; omega
  · show 1 ≤ q.val + 1; omega
  · show q.val + 1 ≤ 222; omega

/-- Every interior index is some image's pixel. -/
theorem exists_pix_of_isInt (j : SRes.Idx) (h : IsInt j) : ∃ (b : Fin 32) (p q : Fin 222), j = pix b p q := by
  obtain ⟨h1, h2, h3, h4⟩ := h
  refine ⟨img j, inner (j 2).val, inner (j 3).val, ?_⟩
  funext a
  apply Fin.ext
  match a with
  | ⟨0, _⟩ => rfl
  | ⟨1, _⟩ =>
    have h : (j 1).val < 1 := (j 1).isLt
    show (j 1).val = 0
    omega
  | ⟨2, _⟩ =>
    show (j 2).val = ((j 2).val - 1) % 222 + 1
    rw [Nat.mod_eq_of_lt (by omega)]; omega
  | ⟨3, _⟩ =>
    show (j 3).val = ((j 3).val - 1) % 222 + 1
    rw [Nat.mod_eq_of_lt (by omega)]; omega

/-- The result array with the kernel's per-pixel value: zero on the border. -/
def GK (A : SArg.Idx → EReal) : SRes.Idx → EReal := fun j =>
  if IsInt j then kerVal (patch A (img j) (inner (j 2).val) (inner (j 3).val)) else 0

/-- The result array with the reference's per-pixel value: zero on the border. -/
def GR (A : SArg.Idx → EReal) : SRes.Idx → EReal := fun j =>
  if IsInt j then refVal (patch A (img j) (inner (j 2).val) (inner (j 3).val)) else 0

theorem GK_pix (A : SArg.Idx → EReal) (b : Fin 32) (p q : Fin 222) : GK A (pix b p q) = kerVal (patch A b p q) := by
  unfold GK
  rw [if_pos (isInt_pix b p q)]
  show kerVal (patch A (img (pix b p q)) (inner (p.val + 1)) (inner (q.val + 1))) = _
  rw [inner_succ, inner_succ]
  rfl

theorem GR_pix (A : SArg.Idx → EReal) (b : Fin 32) (p q : Fin 222) : GR A (pix b p q) = refVal (patch A b p q) := by
  unfold GR
  rw [if_pos (isInt_pix b p q)]
  show refVal (patch A (img (pix b p q)) (inner (p.val + 1)) (inner (q.val + 1))) = _
  rw [inner_succ, inner_succ]
  rfl

theorem GK_border (A : SArg.Idx → EReal) (j : SRes.Idx) (h : ¬ IsInt j) : GK A j = 0 := if_neg h

theorem GR_border (A : SArg.Idx → EReal) (j : SRes.Idx) (h : ¬ IsInt j) : GR A j = 0 := if_neg h

/-- When every entry of the argument is a real number the two arrays are one. -/
theorem GK_eq_GR (A : SArg.Idx → EReal) (hA : ∀ i, ∃ r : ℝ, A i = (r : EReal)) : GK A = GR A := by
  funext j
  unfold GK GR
  by_cases h : IsInt j
  · rw [if_pos h, if_pos h]
    exact kerVal_eq_refVal _ (fun a c => hA _)
  · rw [if_neg h, if_neg h]

end Cert.Spec

end
-- ==== Proof.KernelArray.lean ====
/-
  From one point's block to the whole result array, at the ideal values.

  Point `t` of the grid works on image `t`: its input block is rows `[t, 0, 0, 0] … [t, 2, 223, 223]` of the argument
  array and its output block is image `t` of the result. The body leaves in the output block zero on the one-pixel
  border (the first store, through the whole block) and, at row `p + 1`, column `q + 1`, the largest patch distance at
  `(p, q)` (the second store, through the interior rectangle, which lies over the first). So block `t` is image `t` of
  the one array `GK` of the argument; the 32 blocks cover the result; the result ends holding `GK`.
-/
import proofs.«154331_j50551765074334_1_alg».proof.Proof.BodyIdeal
import proofs.«154331_j50551765074334_1_alg».proof.Proof.KernelValue
import proofs.«154331_j50551765074334_1_alg».proof.Proof.Whole
import Idealize.ShloMosaic.Lib.Pipeline.Value
import Idealize.ShloMosaic.PureOps.Ideal.Laws

set_option maxRecDepth 16384

noncomputable section

namespace Cert.KernelIdeal.Whole

open Cert.KernelIdeal Cert.KernelIdeal.Gen Cert.KernelIdeal.Body Idealize.ShloMosaic Idealize.ShloMosaic.TcCoe Idealize.SL.Sem
open Idealize.ShloMosaic.ValueIdx
open Idealize.ShloMosaic.Pipeline (Dat)
open Cert.Spec (GK pix IsInt patch patchBlk kerVal SArg SRes)

theorem hz4 : (![0, 0, 0, 0] : Fin 4 → Nat) = fun _ => 0 := funext fun a => by fin_cases a <;> rfl

/-! ## The block one point leaves, index by index -/

/-- In the interior the second store lies on top: the block holds the largest patch distance there. -/
theorem outBlock_interior (x0 : Vec Ideal S1x3x224x224 .f32) (p q : Fin 222) :
    outBlock (F := Ideal) x0
        (ix4 (0 : Fin 1) (0 : Fin 1) (⟨p.val + 1, by have := p.isLt; omega⟩ : Fin 224) (⟨q.val + 1, by have := q.isLt; omega⟩ : Fin 224))
      = kerVal (patchBlk x0 p q) := by
  have e : (ix4 (0 : Fin 1) (0 : Fin 1) (⟨p.val + 1, by have := p.isLt; omega⟩ : Fin 224)
        (⟨q.val + 1, by have := q.isLt; omega⟩ : Fin 224) : S1x1x224x224.Idx)
      = rInt.emb (ix4 (0 : Fin 1) (0 : Fin 1) p q) := by
    funext a; apply Fin.ext
    match a with
    | ⟨0, _⟩ => rfl
    | ⟨1, _⟩ => rfl
    | ⟨2, _⟩ => show p.val + 1 = 1 + 1 * p.val; omega
    | ⟨3, _⟩ => show q.val + 1 = 1 + 1 * q.val; omega
  rw [e]
  unfold outBlock
  rw [View.canon_cons_emb, pay2_apply, View.ld_unit_zero hz4, interior_apply]

/-- Off the interior rectangle only the first store reaches: the block holds zero. -/
theorem outBlock_border (x0 : Vec Ideal S1x3x224x224 .f32) (j : S1x1x224x224.Idx)
    (h : ¬ (1 ≤ (j 2).val ∧ (j 2).val ≤ 222 ∧ 1 ≤ (j 3).val ∧ (j 3).val ≤ 222)) :
    outBlock (F := Ideal) x0 j = 0 := by
  have hn : j ∉ rInt.set := by
    intro hm
    have hm' := (Rect.mem_set_unit (s := S1x1x224x224)).mp hm
    apply h
    have h2 : 1 ≤ (j 2).val ∧ (j 2).val < 1 + 222 := hm' 2
    have h3 : 1 ≤ (j 3).val ∧ (j 3).val < 1 + 222 := hm' 3
    omega
  have e1 : outBlock (F := Ideal) x0 j
      = View.canon [(⟨rOut, k0_pay1 (k0_pay37 (F := Ideal))⟩ : View.Piece (Elt Ideal) S1x1x224x224 .f32)] j := by
    unfold outBlock
    exact View.canon_cons_of_not_mem (⟨rInt, k0_pay2 (interior (View.ld x0 rIn))⟩ : View.Piece (Elt Ideal) S1x1x224x224 .f32) _ hn
  rw [e1, View.canon_unit_zero hz4, pay1_zero]
  exact Ideal.ofBits_zero_f32

/-- A block whose input is image `b` of `A` is image `b` of `GK A`: stated over variables, the block index `j` and the
    array index `i` it sits at related by their coordinates. -/
theorem block_eq (A : SArg.Idx → EReal) (b : Fin 32) (x0 : Vec Ideal S1x3x224x224 .f32)
    (hx : ∀ (c' : Fin 3) (r s : Fin 224), x0 (ix4 (0 : Fin 1) c' r s) = A (ix4 b c' r s))
    (j : S1x1x224x224.Idx) (i : SRes.Idx)
    (hi0 : (i 0).val = b.val) (hi2 : (i 2).val = (j 2).val) (hi3 : (i 3).val = (j 3).val) :
    outBlock (F := Ideal) x0 j = GK A i := by
  by_cases h : IsInt i
  · obtain ⟨b', p, q, rfl⟩ := Cert.Spec.exists_pix_of_isInt i h
    have hb : b' = b := Fin.ext hi0
    subst hb
    have hj : j = ix4 (0 : Fin 1) (0 : Fin 1) (⟨p.val + 1, by have := p.isLt; omega⟩ : Fin 224)
        (⟨q.val + 1, by have := q.isLt; omega⟩ : Fin 224) := by
      funext a; apply Fin.ext
      match a with
      | ⟨0, _⟩ => have h0 : (j 0).val < 1 := (j 0).isLt; show (j 0).val = 0; omega
      | ⟨1, _⟩ => have h1 : (j 1).val < 1 := (j 1).isLt; show (j 1).val = 0; omega
      | ⟨2, _⟩ => exact hi2.symm
      | ⟨3, _⟩ => exact hi3.symm
    rw [hj, outBlock_interior, Cert.Spec.GK_pix]
    congr 1
    funext a c'
    exact hx c' _ _
  · rw [Cert.Spec.GK_border A i h]
    refine outBlock_border x0 j (fun hj => h ?_)
    unfold Cert.Spec.IsInt
    rw [hi2, hi3]
    exact hj

/-! ## The blocks in the array -/

variable (m : (ℓ : Loc nD τ sig) → Buf (Elt Ideal) ℓ) (ρ : Dev nD → PrngReg)

/-- The printed index maps, decided over the grid: point `t` stages image `t`, whole, of either array. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

theorem t_lt (t : Fin cfg0.N) : t.val < 32 := by
  have h : t.val < grid0.N := t.isLt
  rw [N_0] at h
  exact h

/-- WHAT POINT `t` WRITES BACK is block `t` of `GK` of the argument array as the region finds it. -/
theorem flushed_eq (c : Dev nD) (t : Fin cfg0.N) :
    (dats m 0 c).flushed 1 t = ((cfg0.win 1).blk t).view.read (Elt Ideal) (GK (V m c main_arg0)) := by
  show (cfg0.win 1).cut (grid0.coords t) ((dats m 0 c).after 1 t) = _
  rw [after0_1]
  obtain ⟨e0, e1, e2, e3, f0, f1, f2, f3⟩ := idx_facts t
  funext j
  show outBlock (F := Ideal) (iblk m c 0 t) j = GK (V m c main_arg0) (((cfg0.win 1).blk t).view.emb j)
  refine block_eq (V m c main_arg0) ⟨t.val, t_lt t⟩ (iblk m c 0 t) ?_ j _ ?_ ?_ ?_
  · intro c' r s
    show V m c main_arg0 (((cfg0.win 0).blk t).view.emb (ix4 (0 : Fin 1) c' r s)) = V m c main_arg0 (ix4 ⟨t.val, t_lt t⟩ c' r s)
    refine congrArg (V m c main_arg0) ?_
    funext a; apply Fin.ext
    match a with
    | ⟨0, _⟩ => show win0_0.index t (0 : Fin 4) * 1 + 1 * 0 = t.val; omega
    | ⟨1, _⟩ => show win0_0.index t (1 : Fin 4) * 3 + 1 * c'.val = c'.val; omega
    | ⟨2, _⟩ => show win0_0.index t (2 : Fin 4) * 224 + 1 * r.val = r.val; omega
    | ⟨3, _⟩ => show win0_0.index t (3 : Fin 4) * 224 + 1 * s.val = s.val; omega
  · show win0_1.index t (0 : Fin 4) * 1 + 1 * (j 0).val = t.val
    have h0 : (j 0).val < 1 := (j 0).isLt
    omega
  · show win0_1.index t (2 : Fin 4) * 224 + 1 * (j 2).val = (j 2).val; omega
  · show win0_1.index t (3 : Fin 4) * 224 + 1 * (j 3).val = (j 3).val; omega

/-- An index of the result is in point `t`'s block iff each coordinate is in the block's range on its axis. -/
theorem mem_blk (t : Fin cfg0.N) (i : S32x1x224x224.Idx) :
    i ∈ ((cfg0.win 1).blk t).view.set ↔ ∀ a : Fin 4, win0_1.index t a * S1x1x224x224.size a ≤ (i a).val
      ∧ (i a).val < win0_1.index t a * S1x1x224x224.size a + S1x1x224x224.size a := by
  show i ∈ ((View.whole main_v0).slice (win0_1.rect t)).set ↔ _
  rw [View.set_slice_whole, Rect.mem_set_unit]
  exact Iff.rfl

/-- Every index of the result lies in the block of the point its image names. -/
theorem cover (i : S32x1x224x224.Idx) :
    ∃ t : Fin cfg0.N, (cfg0.win 1).flush t = true ∧ i ∈ ((cfg0.win 1).blk t).view.set := by
  have hi0 : (i 0).val < 32 := (i 0).isLt
  have hi1 : (i 1).val < 1 := (i 1).isLt
  have hi2 : (i 2).val < 224 := (i 2).isLt
  have hi3 : (i 3).val < 224 := (i 3).isLt
  have hN : (i 0).val < cfg0.N := by
    show (i 0).val < grid0.N
    rw [N_0]; exact hi0
  refine ⟨⟨(i 0).val, hN⟩, flush0_1 _, ?_⟩
  rw [mem_blk]
  obtain ⟨e0, e1, e2, e3, f0, f1, f2, f3⟩ := idx_facts ⟨(i 0).val, hN⟩
  intro a
  match a with
  | ⟨0, _⟩ =>
    show win0_1.index ⟨(i 0).val, hN⟩ (0 : Fin 4) * 1 ≤ (i 0).val ∧ (i 0).val < win0_1.index ⟨(i 0).val, hN⟩ (0 : Fin 4) * 1 + 1
    have : win0_1.index ⟨(i 0).val, hN⟩ (0 : Fin 4) = (i 0).val := f0
    omega
  | ⟨1, _⟩ =>
    show win0_1.index ⟨(i 0).val, hN⟩ (1 : Fin 4) * 1 ≤ (i 1).val ∧ (i 1).val < win0_1.index ⟨(i 0).val, hN⟩ (1 : Fin 4) * 1 + 1
    omega
  | ⟨2, _⟩ =>
    show win0_1.index ⟨(i 0).val, hN⟩ (2 : Fin 4) * 224 ≤ (i 2).val ∧ (i 2).val < win0_1.index ⟨(i 0).val, hN⟩ (2 : Fin 4) * 224 + 224
    omega
  | ⟨3, _⟩ =>
    show win0_1.index ⟨(i 0).val, hN⟩ (3 : Fin 4) * 224 ≤ (i 3).val ∧ (i 3).val < win0_1.index ⟨(i 0).val, hN⟩ (3 : Fin 4) * 224 + 224
    omega

/-- THE RESULT ARRAY after the run is `GK` of the argument array. -/
theorem final (c : Dev nD) : (dats m 0 c).arrAt 1 cfg0.N = GK (m ((c : Thread nD τ).loc main_arg0)) :=
  (dats m 0 c).arrAt_eq_of_cover 1 (GK (V m c main_arg0)) (fun t _ => flushed_eq m c t) cover

/-! ## The run, read -/

/-- Every weakly fair execution of the idealized kernel terminates with the result array at `GK` of the argument array
    and the argument array unchanged. -/
theorem run : θ_run defs (onTc (τ := τ) (main (F := Ideal))) ⟨m, fun _ => 0, ρ⟩ fun r => ∀ c : Dev nD,
      r.2.mem ((c : Thread nD τ).loc main_v0) = GK (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Whole

end
-- ==== Proof.RefValue.lean ====
/-
  The reference's result, read at an index, as a function of the argument array.

  The reference cuts the nine 222×222 windows of the image at offsets `(i, j)`, `i, j ∈ {0, 1, 2}`, and stacks them on a
  new last axis, window `(i, j)` at position `a = 3·i + j`; so entry `(b, c, h, w, a)` of the stack is the image at
  `(b, c, h + a / 3, w + a % 3)`, and after the transpose the nine vectors at a pixel are `Spec.patch x b h w`.
  From there every operation is pointwise in the pixel: the channel sums of squares and the 9×9 inner products give
  the clamped squared distances `Spec.d2R`, the two guarded selects around the square root give `Spec.distR`, the
  maximum over the two table axes, which runs over exactly the 81 pairs `(p, q)` at the pixel, gives `Spec.refVal`,
  and the final pad puts that value at `(h + 1, w + 1)` and zero on the one-pixel border.
-/
import proofs.«154331_j50551765074334_1_alg».proof.Proof.ReadP
import proofs.«154331_j50551765074334_1_alg».proof.Proof.Spec
import Idealize.ShloMosaic.Lib.ValueIdx
import Idealize.ShloMosaic.Lib.ValueLayout
import Idealize.ShloMosaic.PureOps.Ideal.Laws
import Idealize.ShloMosaic.Lib.Pipeline.Value
import Idealize.ShloMosaic.Lib.KernelVsHost
import Idealize.ShloMosaic.PureOps.Reduce

noncomputable section

namespace Cert.ReferenceIdeal.RefValue

open Idealize.ShloMosaic Idealize.ShloMosaic.ValueIdx Cert.ReferenceIdeal Cert.ReferenceIdeal.ReadP

/-! ## The stack of the nine windows

Position `k` of the stacked axis holds the window at row offset `k / 3` and column offset `k % 3`: the pieces before it
have extent one each, so the coordinate `k` falls at entry `0` of piece `k`. -/

/-- Position 0 of the stack: the window at offsets `(0, 0)`. -/
theorem v18_at_0 (x : (⟨S32x3x224x224, .f32⟩ : BufTy).Contents (Elt Ideal)) (b : Fin 32) (c : Fin 3) (h w : Fin 222) :
    val_main_v18 (F := Ideal) x (ix5 b c h w (⟨0, by omega⟩ : Fin 9))
      = x (ix4 b c ⟨h.val + 0 / 3, by omega⟩ ⟨w.val + 0 % 3, by omega⟩) := by
  unfold val_main_v18
  refine (concatenate_apply_piece (t := S32x3x222x222x9) 4 _ _ (ix5 b c h w (⟨0, by omega⟩ : Fin 9)) 0
    (by show (0 : Nat) < 9; omega) S32x3x222x222x1 (val_main_v9 (F := Ideal) x) rfl rfl 0 rfl
    (ix5 b c h w (0 : Fin 1)) ?_ ?_).trans ?_
  · intro d hd
    match d with
    | ⟨0, _⟩ => rfl
    | ⟨1, _⟩ => rfl
    | ⟨2, _⟩ => rfl
    | ⟨3, _⟩ => rfl
    | ⟨4, _⟩ => exact absurd rfl hd
  · rfl
  · rw [val_main_v9_apply, val_main_v0_apply]
    exact congrArg x (funext fun d => Fin.ext (by
      match d with
      | ⟨0, _⟩ => rfl
      | ⟨1, _⟩ => rfl
      | ⟨2, _⟩ => show h.val = h.val + 0 / 3; omega
      | ⟨3, _⟩ => show w.val = w.val + 0 % 3; omega))

/-- Position 1 of the stack: the window at offsets `(0, 1)`. -/
theorem v18_at_1 (x : (⟨S32x3x224x224, .f32⟩ : BufTy).Contents (Elt Ideal)) (b : Fin 32) (c : Fin 3) (h w : Fin 222) :
    val_main_v18 (F := Ideal) x (ix5 b c h w (⟨1, by omega⟩ : Fin 9))
      = x (ix4 b c ⟨h.val + 1 / 3, by omega⟩ ⟨w.val + 1 % 3, by omega⟩) := by
  unfold val_main_v18
  refine (concatenate_apply_piece (t := S32x3x222x222x9) 4 _ _ (ix5 b c h w (⟨1, by omega⟩ : Fin 9)) 1
    (by show (1 : Nat) < 9; omega) S32x3x222x222x1 (val_main_v10 (F := Ideal) x) rfl rfl 1 rfl
    (ix5 b c h w (0 : Fin 1)) ?_ ?_).trans ?_
  · intro d hd
    match d with
    | ⟨0, _⟩ => rfl
    | ⟨1, _⟩ => rfl
    | ⟨2, _⟩ => rfl
    | ⟨3, _⟩ => rfl
    | ⟨4, _⟩ => exact absurd rfl hd
  · rfl
  · rw [val_main_v10_apply, val_main_v1_apply]
    exact congrArg x (funext fun d => Fin.ext (by
      match d with
      | ⟨0, _⟩ => rfl
      | ⟨1, _⟩ => rfl
      | ⟨2, _⟩ => show h.val = h.val + 1 / 3; omega
      | ⟨3, _⟩ => show 1 + w.val = w.val + 1 % 3; omega))

/-- Position 2 of the stack: the window at offsets `(0, 2)`. -/
theorem v18_at_2 (x : (⟨S32x3x224x224, .f32⟩ : BufTy).Contents (Elt Ideal)) (b : Fin 32) (c : Fin 3) (h w : Fin 222) :
    val_main_v18 (F := Ideal) x (ix5 b c h w (⟨2, by omega⟩ : Fin 9))
      = x (ix4 b c ⟨h.val + 2 / 3, by omega⟩ ⟨w.val + 2 % 3, by omega⟩) := by
  unfold val_main_v18
  refine (concatenate_apply_piece (t := S32x3x222x222x9) 4 _ _ (ix5 b c h w (⟨2, by omega⟩ : Fin 9)) 2
    (by show (2 : Nat) < 9; omega) S32x3x222x222x1 (val_main_v11 (F := Ideal) x) rfl rfl 2 rfl
    (ix5 b c h w (0 : Fin 1)) ?_ ?_).trans ?_
  · intro d hd
    match d with
    | ⟨0, _⟩ => rfl
    | ⟨1, _⟩ => rfl
    | ⟨2, _⟩ => rfl
    | ⟨3, _⟩ => rfl
    | ⟨4, _⟩ => exact absurd rfl hd
  · rfl
  · rw [val_main_v11_apply, val_main_v2_apply]
    exact congrArg x (funext fun d => Fin.ext (by
      match d with
      | ⟨0, _⟩ => rfl
      | ⟨1, _⟩ => rfl
      | ⟨2, _⟩ => show h.val = h.val + 2 / 3; omega
      | ⟨3, _⟩ => show 2 + w.val = w.val + 2 % 3; omega))

/-- Position 3 of the stack: the window at offsets `(1, 0)`. -/
theorem v18_at_3 (x : (⟨S32x3x224x224, .f32⟩ : BufTy).Contents (Elt Ideal)) (b : Fin 32) (c : Fin 3) (h w : Fin 222) :
    val_main_v18 (F := Ideal) x (ix5 b c h w (⟨3, by omega⟩ : Fin 9))
      = x (ix4 b c ⟨h.val + 3 / 3, by omega⟩ ⟨w.val + 3 % 3, by omega⟩) := by
  unfold val_main_v18
  refine (concatenate_apply_piece (t := S32x3x222x222x9) 4 _ _ (ix5 b c h w (⟨3, by omega⟩ : Fin 9)) 3
    (by show (3 : Nat) < 9; omega) S32x3x222x222x1 (val_main_v12 (F := Ideal) x) rfl rfl 3 rfl
    (ix5 b c h w (0 : Fin 1)) ?_ ?_).trans ?_
  · intro d hd
    match d with
    | ⟨0, _⟩ => rfl
    | ⟨1, _⟩ => rfl
    | ⟨2, _⟩ => rfl
    | ⟨3, _⟩ => rfl
    | ⟨4, _⟩ => exact absurd rfl hd
  · rfl
  · rw [val_main_v12_apply, val_main_v3_apply]
    exact congrArg x (funext fun d => Fin.ext (by
      match d with
      | ⟨0, _⟩ => rfl
      | ⟨1, _⟩ => rfl
      | ⟨2, _⟩ => show 1 + h.val = h.val + 3 / 3; omega
      | ⟨3, _⟩ => show w.val = w.val + 3 % 3; omega))

/-- Position 4 of the stack: the window at offsets `(1, 1)`. -/
theorem v18_at_4 (x : (⟨S32x3x224x224, .f32⟩ : BufTy).Contents (Elt Ideal)) (b : Fin 32) (c : Fin 3) (h w : Fin 222) :
    val_main_v18 (F := Ideal) x (ix5 b c h w (⟨4, by omega⟩ : Fin 9))
      = x (ix4 b c ⟨h.val + 4 / 3, by omega⟩ ⟨w.val + 4 % 3, by omega⟩) := by
  unfold val_main_v18
  refine (concatenate_apply_piece (t := S32x3x222x222x9) 4 _ _ (ix5 b c h w (⟨4, by omega⟩ : Fin 9)) 4
    (by show (4 : Nat) < 9; omega) S32x3x222x222x1 (val_main_v13 (F := Ideal) x) rfl rfl 4 rfl
    (ix5 b c h w (0 : Fin 1)) ?_ ?_).trans ?_
  · intro d hd
    match d with
    | ⟨0, _⟩ => rfl
    | ⟨1, _⟩ => rfl
    | ⟨2, _⟩ => rfl
    | ⟨3, _⟩ => rfl
    | ⟨4, _⟩ => exact absurd rfl hd
  · rfl
  · rw [val_main_v13_apply, val_main_v4_apply]
    exact congrArg x (funext fun d => Fin.ext (by
      match d with
      | ⟨0, _⟩ => rfl
      | ⟨1, _⟩ => rfl
      | ⟨2, _⟩ => show 1 + h.val = h.val + 4 / 3; omega
      | ⟨3, _⟩ => show 1 + w.val = w.val + 4 % 3; omega))

/-- Position 5 of the stack: the window at offsets `(1, 2)`. -/
theorem v18_at_5 (x : (⟨S32x3x224x224, .f32⟩ : BufTy).Contents (Elt Ideal)) (b : Fin 32) (c : Fin 3) (h w : Fin 222) :
    val_main_v18 (F := Ideal) x (ix5 b c h w (⟨5, by omega⟩ : Fin 9))
      = x (ix4 b c ⟨h.val + 5 / 3, by omega⟩ ⟨w.val + 5 % 3, by omega⟩) := by
  unfold val_main_v18
  refine (concatenate_apply_piece (t := S32x3x222x222x9) 4 _ _ (ix5 b c h w (⟨5, by omega⟩ : Fin 9)) 5
    (by show (5 : Nat) < 9; omega) S32x3x222x222x1 (val_main_v14 (F := Ideal) x) rfl rfl 5 rfl
    (ix5 b c h w (0 : Fin 1)) ?_ ?_).trans ?_
  · intro d hd
    match d with
    | ⟨0, _⟩ => rfl
    | ⟨1, _⟩ => rfl
    | ⟨2, _⟩ => rfl
    | ⟨3, _⟩ => rfl
    | ⟨4, _⟩ => exact absurd rfl hd
  · rfl
  · rw [val_main_v14_apply, val_main_v5_apply]
    exact congrArg x (funext fun d => Fin.ext (by
      match d with
      | ⟨0, _⟩ => rfl
      | ⟨1, _⟩ => rfl
      | ⟨2, _⟩ => show 1 + h.val = h.val + 5 / 3; omega
      | ⟨3, _⟩ => show 2 + w.val = w.val + 5 % 3; omega))

/-- Position 6 of the stack: the window at offsets `(2, 0)`. -/
theorem v18_at_6 (x : (⟨S32x3x224x224, .f32⟩ : BufTy).Contents (Elt Ideal)) (b : Fin 32) (c : Fin 3) (h w : Fin 222) :
    val_main_v18 (F := Ideal) x (ix5 b c h w (⟨6, by omega⟩ : Fin 9))
      = x (ix4 b c ⟨h.val + 6 / 3, by omega⟩ ⟨w.val + 6 % 3, by omega⟩) := by
  unfold val_main_v18
  refine (concatenate_apply_piece (t := S32x3x222x222x9) 4 _ _ (ix5 b c h w (⟨6, by omega⟩ : Fin 9)) 6
    (by show (6 : Nat) < 9; omega) S32x3x222x222x1 (val_main_v15 (F := Ideal) x) rfl rfl 6 rfl
    (ix5 b c h w (0 : Fin 1)) ?_ ?_).trans ?_
  · intro d hd
    match d with
    | ⟨0, _⟩ => rfl
    | ⟨1, _⟩ => rfl
    | ⟨2, _⟩ => rfl
    | ⟨3, _⟩ => rfl
    | ⟨4, _⟩ => exact absurd rfl hd
  · rfl
  · rw [val_main_v15_apply, val_main_v6_apply]
    exact congrArg x (funext fun d => Fin.ext (by
      match d with
      | ⟨0, _⟩ => rfl
      | ⟨1, _⟩ => rfl
      | ⟨2, _⟩ => show 2 + h.val = h.val + 6 / 3; omega
      | ⟨3, _⟩ => show w.val = w.val + 6 % 3; omega))

/-- Position 7 of the stack: the window at offsets `(2, 1)`. -/
theorem v18_at_7 (x : (⟨S32x3x224x224, .f32⟩ : BufTy).Contents (Elt Ideal)) (b : Fin 32) (c : Fin 3) (h w : Fin 222) :
    val_main_v18 (F := Ideal) x (ix5 b c h w (⟨7, by omega⟩ : Fin 9))
      = x (ix4 b c ⟨h.val + 7 / 3, by omega⟩ ⟨w.val + 7 % 3, by omega⟩) := by
  unfold val_main_v18
  refine (concatenate_apply_piece (t := S32x3x222x222x9) 4 _ _ (ix5 b c h w (⟨7, by omega⟩ : Fin 9)) 7
    (by show (7 : Nat) < 9; omega) S32x3x222x222x1 (val_main_v16 (F := Ideal) x) rfl rfl 7 rfl
    (ix5 b c h w (0 : Fin 1)) ?_ ?_).trans ?_
  · intro d hd
    match d with
    | ⟨0, _⟩ => rfl
    | ⟨1, _⟩ => rfl
    | ⟨2, _⟩ => rfl
    | ⟨3, _⟩ => rfl
    | ⟨4, _⟩ => exact absurd rfl hd
  · rfl
  · rw [val_main_v16_apply, val_main_v7_apply]
    exact congrArg x (funext fun d => Fin.ext (by
      match d with
      | ⟨0, _⟩ => rfl
      | ⟨1, _⟩ => rfl
      | ⟨2, _⟩ => show 2 + h.val = h.val + 7 / 3; omega
      | ⟨3, _⟩ => show 1 + w.val = w.val + 7 % 3; omega))

/-- Position 8 of the stack: the window at offsets `(2, 2)`. -/
theorem v18_at_8 (x : (⟨S32x3x224x224, .f32⟩ : BufTy).Contents (Elt Ideal)) (b : Fin 32) (c : Fin 3) (h w : Fin 222) :
    val_main_v18 (F := Ideal) x (ix5 b c h w (⟨8, by omega⟩ : Fin 9))
      = x (ix4 b c ⟨h.val + 8 / 3, by omega⟩ ⟨w.val + 8 % 3, by omega⟩) := by
  unfold val_main_v18
  refine (concatenate_apply_piece (t := S32x3x222x222x9) 4 _ _ (ix5 b c h w (⟨8, by omega⟩ : Fin 9)) 8
    (by show (8 : Nat) < 9; omega) S32x3x222x222x1 (val_main_v17 (F := Ideal) x) rfl rfl 8 rfl
    (ix5 b c h w (0 : Fin 1)) ?_ ?_).trans ?_
  · intro d hd
    match d with
    | ⟨0, _⟩ => rfl
    | ⟨1, _⟩ => rfl
    | ⟨2, _⟩ => rfl
    | ⟨3, _⟩ => rfl
    | ⟨4, _⟩ => exact absurd rfl hd
  · rfl
  · rw [val_main_v17_apply, val_main_v8_apply]
    exact congrArg x (funext fun d => Fin.ext (by
      match d with
      | ⟨0, _⟩ => rfl
      | ⟨1, _⟩ => rfl
      | ⟨2, _⟩ => show 2 + h.val = h.val + 8 / 3; omega
      | ⟨3, _⟩ => show 2 + w.val = w.val + 8 % 3; omega))

/-- The concatenate at patch number `a`: the slice at row offset `a / 3` and column offset `a % 3`. -/
theorem v18_apply (x : (⟨S32x3x224x224, .f32⟩ : BufTy).Contents (Elt Ideal)) (b : Fin 32) (c : Fin 3) (h w : Fin 222) (a : Fin 9) :
    val_main_v18 (F := Ideal) x (ix5 b c h w a)
      = x (ix4 b c ⟨h.val + a.val / 3, by omega⟩ ⟨w.val + a.val % 3, by omega⟩) := by
  match a with
  | ⟨0, _⟩ => exact v18_at_0 x b c h w
  | ⟨1, _⟩ => exact v18_at_1 x b c h w
  | ⟨2, _⟩ => exact v18_at_2 x b c h w
  | ⟨3, _⟩ => exact v18_at_3 x b c h w
  | ⟨4, _⟩ => exact v18_at_4 x b c h w
  | ⟨5, _⟩ => exact v18_at_5 x b c h w
  | ⟨6, _⟩ => exact v18_at_6 x b c h w
  | ⟨7, _⟩ => exact v18_at_7 x b c h w
  | ⟨8, _⟩ => exact v18_at_8 x b c h w

/-- After the transpose, entry `(b, h, w, a, c)` is channel `c` of patch `a` at the pixel. -/
theorem v19_apply (x : (⟨S32x3x224x224, .f32⟩ : BufTy).Contents (Elt Ideal)) (b : Fin 32) (h w : Fin 222) (a : Fin 9) (c : Fin 3) :
    val_main_v19 (F := Ideal) x (ix5 b h w a c) = Cert.Spec.patch x b h w a c := by
  rw [val_main_v19_apply]
  have e : idx_main_v19 (ix5 b h w a c) = ix5 b c h w a := funext fun d => Fin.ext (by
    match d with
    | ⟨0, _⟩ => rfl
    | ⟨1, _⟩ => rfl
    | ⟨2, _⟩ => rfl
    | ⟨3, _⟩ => rfl
    | ⟨4, _⟩ => rfl)
  rw [e, v18_apply]
  rfl

/-! ## The pointwise stages at a pixel -/

/-- The channel sum of squares of patch `p`, from the initial value. -/
theorem v21_apply (x : (⟨S32x3x224x224, .f32⟩ : BufTy).Contents (Elt Ideal)) (b : Fin 32) (h w : Fin 222) (p : Fin 9) :
    val_main_v21 (F := Ideal) x (ix4 b h w p) = Cert.Spec.sqR (Cert.Spec.patch x b h w) p := by
  rw [val_main_v21_apply]
  unfold Cert.Spec.sqR
  refine congrArg₂ (· + ·) rfl (Finset.sum_congr rfl fun k _ => ?_)
  have e : idx_main_v21 (ix4 b h w p) k = ix5 b h w p k := funext fun d => Fin.ext (by
    match d with
    | ⟨0, _⟩ => rfl
    | ⟨1, _⟩ => rfl
    | ⟨2, _⟩ => rfl
    | ⟨3, _⟩ => rfl
    | ⟨4, _⟩ => rfl)
  rw [val_main_v20_apply, e, v19_apply]
  rfl

/-- The inner product of patches `p` and `q` over the channels. -/
theorem v22_apply (x : (⟨S32x3x224x224, .f32⟩ : BufTy).Contents (Elt Ideal)) (b : Fin 32) (h w : Fin 222) (p q : Fin 9) :
    val_main_v22 (F := Ideal) x (ix5 b h w p q) = Cert.Spec.gram (Cert.Spec.patch x b h w) p q := by
  rw [val_main_v22_apply]
  unfold Cert.Spec.gram
  refine Finset.sum_congr rfl fun k _ => ?_
  have el : lidx_main_v22 (ix5 b h w p q) k = ix5 b h w p k := funext fun d => Fin.ext (by
    match d with
    | ⟨0, _⟩ => rfl
    | ⟨1, _⟩ => rfl
    | ⟨2, _⟩ => rfl
    | ⟨3, _⟩ => rfl
    | ⟨4, _⟩ => rfl)
  have er : ridx_main_v22 (ix5 b h w p q) k = ix5 b h w q k := funext fun d => Fin.ext (by
    match d with
    | ⟨0, _⟩ => rfl
    | ⟨1, _⟩ => rfl
    | ⟨2, _⟩ => rfl
    | ⟨3, _⟩ => rfl
    | ⟨4, _⟩ => rfl)
  rw [el, er, v19_apply, v19_apply]

/-- The clamped squared distance of patches `p` and `q`. -/
theorem v32_apply (x : (⟨S32x3x224x224, .f32⟩ : BufTy).Contents (Elt Ideal)) (b : Fin 32) (h w : Fin 222) (p q : Fin 9) :
    val_main_v32 (F := Ideal) x (ix5 b h w p q) = Cert.Spec.d2R (Cert.Spec.patch x b h w) p q := by
  have e25 : idx_main_v23 (idx_main_v25 (ix5 b h w p q)) = ix4 b h w p := funext fun d => Fin.ext (by
    match d with
    | ⟨0, _⟩ => rfl
    | ⟨1, _⟩ => rfl
    | ⟨2, _⟩ => rfl
    | ⟨3, _⟩ => rfl)
  have e26 : idx_main_v24 (idx_main_v26 (ix5 b h w p q)) = ix4 b h w q := funext fun d => Fin.ext (by
    match d with
    | ⟨0, _⟩ => rfl
    | ⟨1, _⟩ => rfl
    | ⟨2, _⟩ => rfl
    | ⟨3, _⟩ => rfl)
  rw [val_main_v32_apply, val_main_v30_apply, val_main_v27_apply, val_main_v25_apply, val_main_v23_apply, e25,
    val_main_v26_apply, val_main_v24_apply, e26, val_main_v29_apply, val_main_v28_apply, val_main_cst_0_apply,
    val_main_v31_apply, val_main_cst_1_apply, v21_apply, v21_apply, v22_apply]
  rfl

/-- The guarded root of the clamped squared distance. -/
theorem v39_apply (x : (⟨S32x3x224x224, .f32⟩ : BufTy).Contents (Elt Ideal)) (b : Fin 32) (h w : Fin 222) (p q : Fin 9) :
    val_main_v39 (F := Ideal) x (ix5 b h w p q) = Cert.Spec.distR (Cert.Spec.patch x b h w) p q := by
  rw [val_main_v39_apply, val_main_v34_apply, val_main_v38_apply, val_main_v37_apply, val_main_v36_apply,
    val_main_v33_apply, val_main_cst_2_apply, val_main_v35_apply, val_main_cst_3_apply,
    val_main_call0_v1_apply, val_main_call0_v0_apply, val_main_cst_4_apply,
    val_main_call1_v1_apply, val_main_call1_v0_apply, val_main_cst_5_apply, v32_apply]
  rfl

/-! ## The maximum over the table

The reduction over the two table axes folds `max` from negative infinity over the indices whose first three
coordinates are the pixel's: the injective image of the 81 pairs. -/

/-- The bit pattern of negative infinity denotes the bottom element. -/
theorem ofBits_neg_inf : Ideal.ofBits .f32 0xFF800000#32 = (⊥ : EReal) := by
  simp [Ideal.ofBits, Ideal.ieee]

/-- Dropping the two table axes of an index of the 9×9 table leaves its pixel. -/
theorem drop_ix5 (hr : S32x222x222x9x9.ReducesTo [3, 4] S32x222x222) (b : Fin 32) (h w : Fin 222) (p q : Fin 9) :
    hr.drop (ix5 b h w p q) = ix3 b h w := by
  funext d
  refine Fin.ext ?_
  match d with
  | ⟨0, _⟩ => rfl
  | ⟨1, _⟩ => rfl
  | ⟨2, _⟩ => rfl

/-- The indices that drop to pixel `(b, h, w)` are exactly the pairs `(p, q)` at that pixel. -/
theorem filter_drop_eq_image (hr : S32x222x222x9x9.ReducesTo [3, 4] S32x222x222) (b : Fin 32) (h w : Fin 222) :
    (Finset.univ.filter fun i : S32x222x222x9x9.Idx => hr.drop i = ix3 b h w)
      = (Finset.univ : Finset (Fin 9 × Fin 9)).image (fun pq => (ix5 b h w pq.1 pq.2 : S32x222x222x9x9.Idx)) := by
  ext i
  simp only [Finset.mem_filter, Finset.mem_univ, true_and, Finset.mem_image]
  constructor
  · intro hi
    obtain ⟨i0, i1, i2, i3, i4, rfl⟩ : ∃ (i0 : Fin 32) (i1 i2 : Fin 222) (i3 i4 : Fin 9), i = ix5 i0 i1 i2 i3 i4 :=
      ⟨i 0, i 1, i 2, i 3, i 4, eq_ix5 i⟩
    rw [drop_ix5] at hi
    have h0 : i0 = b := congrFun hi 0
    have h1 : i1 = h := congrFun hi 1
    have h2 : i2 = w := congrFun hi 2
    subst h0 h1 h2
    exact ⟨(i3, i4), rfl⟩
  · rintro ⟨pq, rfl⟩
    exact drop_ix5 hr b h w pq.1 pq.2

/-- The maximum over the whole 9×9 table at a pixel, from negative infinity. -/
theorem v40_apply (x : (⟨S32x3x224x224, .f32⟩ : BufTy).Contents (Elt Ideal)) (b : Fin 32) (h w : Fin 222) :
    val_main_v40 (F := Ideal) x (ix3 b h w) = Cert.Spec.refVal (Cert.Spec.patch x b h w) := by
  unfold val_main_v40
  rw [Host.reduce_eq_fold, filter_drop_eq_image, Finset.fold_image]
  · unfold Cert.Spec.refVal
    rw [val_main_cst_6_apply]
    show Finset.fold max (Ideal.ofBits .f32 0xFF800000#32) _ _ = _
    rw [ofBits_neg_inf]
    refine Finset.fold_congr fun pq _ => ?_
    exact v39_apply x b h w pq.1 pq.2
  · intro pq _ pq' _ e
    have e3 : pq.1 = pq'.1 := congrFun e 3
    have e4 : pq.2 = pq'.2 := congrFun e 4
    exact Prod.ext e3 e4

/-! ## The pad -/

/-- Inside the one-pixel zero border the padded result is the table maximum at the pixel one up and one left. -/
theorem ref_interior (x : (⟨S32x3x224x224, .f32⟩ : BufTy).Contents (Elt Ideal)) (b : Fin 32) (h w : Fin 222) :
    val_main_v42 (F := Ideal) x (ix4 b 0 ⟨h.val + 1, by omega⟩ ⟨w.val + 1, by omega⟩)
      = Cert.Spec.refVal (Cert.Spec.patch x b h w) := by
  unfold val_main_v42
  refine (pad_apply_of_inside (s := S32x1x222x222) (t := S32x1x224x224) ![0, 0, 1, 1] ![0, 0, 1, 1] ![0, 0, 0, 0] _ _ _ _
    (ix4 b 0 ⟨h.val + 1, by omega⟩ ⟨w.val + 1, by omega⟩) (ix4 b (0 : Fin 1) h w) ?_).trans ?_
  · intro a
    match a with
    | ⟨0, _⟩ => show b.val = 0 + b.val * (0 + 1); omega
    | ⟨1, _⟩ => show 0 = 0 + 0 * (0 + 1); omega
    | ⟨2, _⟩ => show h.val + 1 = 1 + h.val * (0 + 1); omega
    | ⟨3, _⟩ => show w.val + 1 = 1 + w.val * (0 + 1); omega
  · have e : idx_main_v41 (ix4 b (0 : Fin 1) h w) = ix3 b h w := funext fun d => Fin.ext (by
      match d with
      | ⟨0, _⟩ => rfl
      | ⟨1, _⟩ => rfl
      | ⟨2, _⟩ => rfl)
    rw [val_main_v41_apply, e, v40_apply]

/-- The padding value: the integer zero converted to a float is zero. -/
theorem pad_value : val_main_call2_v0 (F := Ideal) (Shape.Idx.first Facts₀.h_S_) = 0 := by
  rw [val_main_call2_v0_apply, val_main_c_apply]
  show Scalar.sitofp (F := Ideal) .f32 (0#32) = 0
  rw [Ideal.scalar_sitofp_def]
  simp

/-- On the one-pixel border the padded result is zero. -/
theorem ref_border (x : (⟨S32x3x224x224, .f32⟩ : BufTy).Contents (Elt Ideal)) (j : S32x1x224x224.Idx)
    (hj : ¬ (1 ≤ (j 2).val ∧ (j 2).val ≤ 222 ∧ 1 ≤ (j 3).val ∧ (j 3).val ≤ 222)) :
    val_main_v42 (F := Ideal) x j = 0 := by
  unfold val_main_v42
  by_cases h2 : 1 ≤ (j 2).val ∧ (j 2).val ≤ 222
  · have h3 : ¬ (1 ≤ (j 3).val ∧ (j 3).val ≤ 222) := fun h3 => hj ⟨h2.1, h2.2, h3.1, h3.2⟩
    refine (pad_apply_of_not_inside (s := S32x1x222x222) (t := S32x1x224x224) ![0, 0, 1, 1] ![0, 0, 1, 1] ![0, 0, 0, 0] _ _ _ _
      j 3 ?_).trans pad_value
    show ¬ (1 ≤ (j 3).val ∧ ((j 3).val - 1) % (0 + 1) = 0 ∧ ((j 3).val - 1) / (0 + 1) < 222)
    omega
  · refine (pad_apply_of_not_inside (s := S32x1x222x222) (t := S32x1x224x224) ![0, 0, 1, 1] ![0, 0, 1, 1] ![0, 0, 0, 0] _ _ _ _
      j 2 ?_).trans pad_value
    show ¬ (1 ≤ (j 2).val ∧ ((j 2).val - 1) % (0 + 1) = 0 ∧ ((j 2).val - 1) / (0 + 1) < 222)
    omega

end Cert.ReferenceIdeal.RefValue

end
-- ==== Proof.RefWhole.lean ====
/-
  The reference's result array, whole. Its last stage pads the 222 × 222 array of per-pixel maxima by one zero on every
  side of the last two axes, so it is `GR` of the argument array: the reference's per-pixel value in the interior, zero on
  the border. The run of the reference then ends with its result at `GR` of the argument array.
-/
import proofs.«154331_j50551765074334_1_alg».proof.Proof.RunP
import proofs.«154331_j50551765074334_1_alg».proof.Proof.RefValue
import proofs.«154331_j50551765074334_1_alg».proof.Proof.Whole

noncomputable section

namespace Cert.ReferenceIdeal.Whole

open Cert.ReferenceIdeal Cert.ReferenceIdeal.Gen Cert.ReferenceIdeal.ReadP Idealize.ShloMosaic Idealize.ShloMosaic.TcCoe Idealize.SL.Sem
open Idealize.ShloMosaic.ValueIdx
open Cert.Spec (GR IsInt)

/-- The last stage is `GR`: an interior index is some image's pixel, where the stage reads the per-pixel maximum; any
    other index is padding. -/
theorem stage_eq (x : (⟨S32x3x224x224, .f32⟩ : BufTy).Contents (Elt Ideal)) : val_main_v42 (F := Ideal) x = GR x := by
  funext j
  by_cases h : IsInt j
  · obtain ⟨b, p, q, rfl⟩ := Cert.Spec.exists_pix_of_isInt j h
    rw [Cert.Spec.GR_pix]
    exact Cert.ReferenceIdeal.RefValue.ref_interior x b p q
  · rw [Cert.Spec.GR_border x j h]
    exact Cert.ReferenceIdeal.RefValue.ref_border x j h

/-- The term the run states for the result is the last stage, one operation after the other. -/
theorem res_eq (m : (ℓ : Loc nD τ sig) → Buf (Elt Ideal) ℓ) (c : Dev nD) :
    Cert.ReferenceIdeal.ValueP.res_main_v42 m c = val_main_v42 (F := Ideal) (m ((c.tc : Thread nD τ).loc main_arg0)) := by
  unfold Cert.ReferenceIdeal.ValueP.res_main_v42; rfl

/-- Every weakly fair execution of the idealized reference terminates with its result at `GR` of the argument array and
    the argument array unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = GR (m ((c.tc : Thread nD τ).loc main_arg0))
      ∧ r.2.mem ((c.tc : Thread nD τ).loc main_arg0) = m ((c.tc : Thread nD τ).loc main_arg0) :=
  (θ_run defs _ _).mono (fun _ h c => ⟨(h c).1.trans ((res_eq m c).trans (stage_eq _)), (h c).2⟩)
    (Cert.ReferenceIdeal.ValueP.run (F := Ideal) m ρ)

end Cert.ReferenceIdeal.Whole

end
-- ==== Proof.Finite.lean ====
/-
  From the precondition to the reals. The precondition says `|x| < +∞` at every entry of the argument array (a
  conjunction over all entries, taken by a reduction with `and`). On the extended reals `|x| = max x (−x)`, so an entry
  satisfying it is neither `+∞` nor `−∞`: it is a real number.
-/
import proofs.«154331_j50551765074334_1_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic

/-- The pattern of `+∞` denotes the top element. -/
theorem inf_eq : Ideal.ofBits .f32 0x7F800000#32 = (⊤ : EReal) := by
  simp [Ideal.ofBits, Ideal.ieee]

/-- An extended real whose absolute value is below `+∞` is a real. -/
theorem real_of_abs_lt_top (a : EReal) (h : max a (-a) < ⊤) : ∃ r : ℝ, a = (r : EReal) := by
  induction a using EReal.rec with
  | bot => exact absurd h (by simp)
  | coe r => exact ⟨r, rfl⟩
  | top => exact absurd h (by simp)

/-- Under the precondition every entry of the argument array is a real. -/
theorem entry_real [Cert.Pre_finite_inputs.Facts] (x : FVec Ideal Cert.Pre_finite_inputs.S32x3x224x224 .f32)
    (h : Cert.Pre_finite_inputs.fn (F := Ideal) x = fun _ => 1#1) (i : Cert.Pre_finite_inputs.S32x3x224x224.Idx) :
    ∃ r : ℝ, x i = (r : EReal) := by
  have h0 := congrFun h ValueIdx.ix0
  dsimp only [Cert.Pre_finite_inputs.fn] at h0
  haveI : Subsingleton Cert.Pre_finite_inputs.S_.Idx := ⟨fun a b => funext fun d => d.elim0⟩
  have hi := Host.reduce_andi_all _ _ _ _ _ h0 i
  rw [ValueIdx.cmpf_apply, broadcastInDim_apply _ _ _ i ValueIdx.ix0 (fun a => a.elim0)] at hi
  have hc : Ideal.cmp .olt (max (x i) (-(x i))) (Ideal.ofBits .f32 0x7F800000#32) = 1#1 := hi
  rw [inf_eq] at hc
  refine real_of_abs_lt_top (x i) ?_
  by_contra hn
  simp only [Ideal.cmp, hn, decide_false] at hc
  exact absurd hc (by decide)

end Cert.Finite

end
-- ==== Proof.lean ====
/-
  The certificate: the kernel that, for each of 32 three-channel 224 × 224 images, writes at every interior pixel the
  largest Euclidean distance between two of the nine channel vectors of its 3 × 3 neighbourhood (zero on the one-pixel
  border) computes, over the extended reals and on finite inputs, what the reference does.

  The kernel takes the running maximum of the clamped squared distances over the 36 unordered pairs of patches, from
  zero, and one square root at the end; the reference takes a guarded square root of all 81 ordered pairs and their
  maximum from −∞. On real inputs the squared distance is symmetric and vanishes on the diagonal, the guarded root is
  the root, and the root is monotone: both are the largest of the same 81 numbers (Proof/Math.lean). The kernel's
  result array is read off its run block by block (Proof/BodyIdeal.lean: the body's triple and the run;
  Proof/KernelValue.lean: the body's arithmetic at an index; Proof/KernelArray.lean: the blocks in the array), the
  reference's off its run one operation at a time (Proof/RefValue.lean, Proof/RefWhole.lean); the precondition makes
  every entry of the argument a real number (Proof/Finite.lean). The word-level kernel's frame is the same body run at
  the word-level values (Proof/BodyBits.lean). The idealizing pass rewrote nothing, so nothing is owed for it.
-/
import proofs.«154331_j50551765074334_1_alg».proof.Defs
import proofs.«154331_j50551765074334_1_alg».proof.Proof.Gen.Kernel
import proofs.«154331_j50551765074334_1_alg».proof.Proof.Gen.KernelIdeal
import proofs.«154331_j50551765074334_1_alg».proof.Proof.Gen.ReferenceIdeal
import proofs.«154331_j50551765074334_1_alg».proof.Proof.Gen.Pre_finite_inputs
import proofs.«154331_j50551765074334_1_alg».proof.Proof.BodyBits
import proofs.«154331_j50551765074334_1_alg».proof.Proof.KernelArray
import proofs.«154331_j50551765074334_1_alg».proof.Proof.RefWhole
import proofs.«154331_j50551765074334_1_alg».proof.Proof.Finite

noncomputable section

namespace Cert.Proof

open Idealize.ShloMosaic Idealize.ShloMosaic.TcCoe Idealize.SL.Sem

/-- The word-level kernel runs and leaves its argument as it was. -/
theorem frame_p : Cert.frame_Kernel := fun m ρ _ => Cert.Kernel.Body.frame m ρ

/-- So does the idealized kernel. -/
theorem frame_pi : Cert.frame_KernelIdeal := fun m ρ _ => Cert.KernelIdeal.Body.frame m ρ

/-- So does the idealized reference: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealizing pass rewrote no operation. -/
theorem preserves : Cert.preserves_Kernel_KernelIdeal := trivial

/-- From memories that agree on the argument, the kernel's result array is `GK` of it and the reference's is `GR` of
    it; the precondition makes every entry real, and then the two arrays are one. -/
theorem algebraic : Cert.algebraic_KernelIdeal_ReferenceIdeal := by
  intro m ρ m' ρ' hpre hagree
  refine ⟨fun c => Cert.Spec.GK (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Whole.run m' ρ')
  rw [hagree c]
  exact (Cert.Spec.GK_eq_GR _ (fun i => Cert.Finite.entry_real _ (hpre c) i)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
